-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x6250x128 : Shape := ⟨3, ![8, 6250, 128]⟩
abbrev S2x800000 : Shape := ⟨2, ![2, 800000]⟩
abbrev S2x128x128 : Shape := ⟨3, ![2, 128, 128]⟩
abbrev S2x128 : Shape := ⟨2, ![2, 128]⟩
abbrev S_ : Shape := ⟨0, ![]⟩

class Facts : Prop where
  bcast_S_S8x6250x128 : S_.BroadcastsInDim S8x6250x128 (![] : Fin 0 → Fin S8x6250x128.rank)
  reducesTo_S8x6250x128_S_d0_1_2 : S8x6250x128.ReducesTo [0, 1, 2] S_
  h_S_ : 0 < S_.numel
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn {F : FTy → Type} [FloatOps F] (main_arg0 : FVec F S8x6250x128 .f32) (main_arg1 : IVec S2x800000 32) (main_arg2 : FVec F S2x128x128 .f32) (main_arg3 : FVec F S2x128 .f32) : IVec S_ 1 :=
  let main_v0 : FVec F S8x6250x128 .f32 := Host.absf main_arg0
  let main_cst : FVec F S_ .f32 := constant S_ .f32 0x7F800000#32
  let main_v1 : FVec F S8x6250x128 .f32 := broadcastInDim S8x6250x128 ![] bcast_S_S8x6250x128 main_cst
  let main_v2 : IVec S8x6250x128 1 := cmpf .olt main_v0 main_v1
  let main_c : IVec S_ 1 := constantI S_ 1 1#1
  let main_v3 : IVec S_ 1 := (fun x v => Host.reduce IntOp.andi x v reducesTo_S8x6250x128_S_d0_1_2 h_S_) main_v2 main_c
  let main_v4 : FVec F S2x128x128 .f32 := Host.absf main_arg2
  let main_cst_0 : FVec F S_ .f32 := constant S_ .f32 0x7F800000#32
  let main_v5 : FVec F S2x128x128 .f32 := broadcastInDim S2x128x128 ![] bcast_S_S2x128x128 main_cst_0
  let main_v6 : IVec S2x128x128 1 := cmpf .olt main_v4 main_v5
  let main_c_1 : IVec S_ 1 := constantI S_ 1 1#1
  let main_v7 : IVec S_ 1 := (fun x v => Host.reduce IntOp.andi x v reducesTo_S2x128x128_S_d0_1_2 h_S_) main_v6 main_c_1
  let main_v8 : IVec S_ 1 := andi main_v3 main_v7
  let main_v9 : FVec F S2x128 .f32 := Host.absf main_arg3
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  main_v13
-- ==== Kernel.lean ====
abbrev S8x6250x128 : Shape := ⟨3, ![8, 6250, 128]⟩
abbrev S2x800000 : Shape := ⟨2, ![2, 800000]⟩
abbrev S2x128x128 : Shape := ⟨3, ![2, 128, 128]⟩
abbrev S2x128 : Shape := ⟨2, ![2, 128]⟩
abbrev S50000x128 : Shape := ⟨2, ![50000, 128]⟩
abbrev S8 : Shape := ⟨1, ![8]⟩
abbrev S50000 : Shape := ⟨1, ![50000]⟩
abbrev S1x800000 : Shape := ⟨2, ![1, 800000]⟩
abbrev S800000 : Shape := ⟨1, ![800000]⟩
abbrev S850008 : Shape := ⟨1, ![850008]⟩
abbrev S_ : Shape := ⟨0, ![]⟩
abbrev S850008x1 : Shape := ⟨2, ![850008, 1]⟩
abbrev S1x128x128 : Shape := ⟨3, ![1, 128, 128]⟩
abbrev S128x128 : Shape := ⟨2, ![128, 128]⟩
abbrev S5000x128 : Shape := ⟨2, ![5000, 128]⟩
abbrev S850008x128 : Shape := ⟨2, ![850008, 128]⟩
abbrev S1x128 : Shape := ⟨2, ![1, 128]⟩
abbrev S128 : Shape := ⟨1, ![128]⟩

abbrev nBuf : Space → Nat
  | .hbm => 91
  | .vmem => 24
  | .smem => 0
  | _ => 0

abbrev bufTy : (tb : Table) → Fin (tcTables nBuf tb) → BufTy
  | .hbm, ⟨0, _⟩ => ⟨S8x6250x128, .f32⟩
  | .hbm, ⟨1, _⟩ => ⟨S2x800000, .i32⟩
  | .hbm, ⟨2, _⟩ => ⟨S2x128x128, .f32⟩
  | .hbm, ⟨3, _⟩ => ⟨S2x128, .f32⟩
  | .hbm, ⟨4, _⟩ => ⟨S50000x128, .f32⟩
  | .hbm, ⟨5, _⟩ => ⟨S8, .i32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850008, .i32⟩
  | .hbm, ⟨10, _⟩ => ⟨S1x800000, .i32⟩
  | .hbm, ⟨11, _⟩ => ⟨S800000, .i32⟩
  | .hbm, ⟨12, _⟩ => ⟨S850008, .i32⟩
  | .hbm, ⟨13, _⟩ => ⟨S_, .f32⟩
  | .hbm, ⟨14, _⟩ => ⟨S850008, .f32⟩
  | .hbm, ⟨15, _⟩ => ⟨S_, .f32⟩
  | .hbm, ⟨16, _⟩ => ⟨S50000, .f32⟩
  | .hbm, ⟨17, _⟩ => ⟨S850008x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850008, .i32⟩
  | .hbm, ⟨29, _⟩ => ⟨S850008, .i1⟩
  | .hbm, ⟨30, _⟩ => ⟨S_, .i32⟩
  | .hbm, ⟨31, _⟩ => ⟨S850008, .i32⟩
  | .hbm, ⟨32, _⟩ => ⟨S850008, .i32⟩
  | .hbm, ⟨33, _⟩ => ⟨S850008, .i32⟩
  | .hbm, ⟨34, _⟩ => ⟨S850008x1, .i32⟩
  | .hbm, ⟨35, _⟩ => ⟨S850008, .f32⟩
  | .hbm, ⟨36, _⟩ => ⟨S_, .i32⟩
  | .hbm, ⟨37, _⟩ => ⟨S850008, .i32⟩
  | .hbm, ⟨38, _⟩ => ⟨S850008, .i1⟩
  | .hbm, ⟨39, _⟩ => ⟨S_, .i32⟩
  | .hbm, ⟨40, _⟩ => ⟨S850008, .i32⟩
  | .hbm, ⟨41, _⟩ => ⟨S850008, .i32⟩
  | .hbm, ⟨42, _⟩ => ⟨S850008, .i32⟩
  | .hbm, ⟨43, _⟩ => ⟨S850008x1, .i32⟩
  | .hbm, ⟨44, _⟩ => ⟨S850008, .f32⟩
  | .hbm, ⟨45, _⟩ => ⟨S850008, .f32⟩
  | .hbm, ⟨46, _⟩ => ⟨S1x128x128, .f32⟩
  | .hbm, ⟨47, _⟩ => ⟨S128x128, .f32⟩
  | .hbm, ⟨48, _⟩ => ⟨S50000x128, .f32⟩
  | .hbm, ⟨49, _⟩ => ⟨S_, .i32⟩
  | .hbm, ⟨50, _⟩ => ⟨S850008, .i32⟩
  | .hbm, ⟨51, _⟩ => ⟨S850008, .i1⟩
  | .hbm, ⟨52, _⟩ => ⟨S_, .i32⟩
  | .hbm, ⟨53, _⟩ => ⟨S850008, .i32⟩
  | .hbm, ⟨54, _⟩ => ⟨S850008, .i32⟩
  | .hbm, ⟨55, _⟩ => ⟨S850008, .i32⟩
  | .hbm, ⟨56, _⟩ => ⟨S850008x1, .i32⟩
  | .hbm, ⟨57, _⟩ => ⟨S850008x128, .f32⟩
  | .hbm, ⟨58, _⟩ => ⟨S850008x1, .f32⟩
  | .hbm, ⟨59, _⟩ => ⟨S850008x128, .f32⟩
  | .hbm, ⟨60, _⟩ => ⟨S850008x128, .f32⟩
  | .hbm, ⟨61, _⟩ => ⟨S_, .f32⟩
  | .hbm, ⟨62, _⟩ => ⟨S50000x128, .f32⟩
  | .hbm, ⟨63, _⟩ => ⟨S850008x1, .i32⟩
  | .hbm, ⟨64, _⟩ => ⟨S50000x128, .f32⟩
  | .hbm, ⟨65, _⟩ => ⟨S1x128, .f32⟩
  | .hbm, ⟨66, _⟩ => ⟨S128, .f32⟩
  | .hbm, ⟨67, _⟩ => ⟨S50000x128, .f32⟩
  | .hbm, ⟨68, _⟩ => ⟨S1x128x128, .f32⟩
  | .hbm, ⟨69, _⟩ => ⟨S128x128, .f32⟩
  | .hbm, ⟨70, _⟩ => ⟨S50000x128, .f32⟩
  | .hbm, ⟨71, _⟩ => ⟨S_, .i32⟩
  | .hbm, ⟨72, _⟩ => ⟨S850008, .i32⟩
  | .hbm, ⟨73, _⟩ => ⟨S850008, .i1⟩
  | .hbm, ⟨74, _⟩ => ⟨S_, .i32⟩
  | .hbm, ⟨75, _⟩ => ⟨S850008, .i32⟩
  | .hbm, ⟨76, _⟩ => ⟨S850008, .i32⟩
  | .hbm, ⟨77, _⟩ => ⟨S850008, .i32⟩
  | .hbm, ⟨78, _⟩ => ⟨S850008x1, .i32⟩
  | .hbm, ⟨79, _⟩ => ⟨S850008x128, .f32⟩
  | .hbm, ⟨80, _⟩ => ⟨S850008x1, .f32⟩
  | .hbm, ⟨81, _⟩ => ⟨S850008x128, .f32⟩
  | .hbm, ⟨82, _⟩ => ⟨S850008x128, .f32⟩
  | .hbm, ⟨83, _⟩ => ⟨S_, .f32⟩
  | .hbm, ⟨84, _⟩ => ⟨S50000x128, .f32⟩
  | .hbm, ⟨85, _⟩ => ⟨S850008x1, .i32⟩
  | .hbm, ⟨86, _⟩ => ⟨S50000x128, .f32⟩
  | .hbm, ⟨87, _⟩ => ⟨S1x128, .f32⟩
  | .hbm, ⟨88, _⟩ => ⟨S128, .f32⟩
  | .hbm, ⟨89, _⟩ => ⟨S50000x128, .f32⟩
  | .hbm, ⟨90, _⟩ => ⟨S8x6250x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | _, _ => ⟨S8x6250x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_9 : Ref sig .tc := ⟨.hbm, 71, rfl⟩
abbrev main_v54 : Ref sig .tc := ⟨.hbm, 72, rfl⟩
abbrev main_v55 : Ref sig .tc := ⟨.hbm, 73, rfl⟩
abbrev main_c_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_11 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S8x6250x128_S50000x128 : S8x6250x128.ShapeCasts S50000x128
  slices_S2x800000_S1x800000_0_0 : S2x800000.Slices ![0, 0] S1x800000
  shapeCasts_S1x800000_S800000 : S1x800000.ShapeCasts S800000
  concatenates_S800000_S8_S50000_S850008_d0 : Shape.Concatenates [S800000, S8, S50000] S850008 0
  slices_S2x800000_S1x800000_1_0 : S2x800000.Slices ![1, 0] S1x800000
  bcast_S_S850008 : S_.BroadcastsInDim S850008 (![] : Fin 0 → Fin S850008.rank)
  bcast_S_S50000 : S_.BroadcastsInDim S50000 (![] : Fin 0 → Fin S50000.rank)
  bcast_S850008_S850008x1_0 : S850008.BroadcastsInDim S850008x1 (![0] : Fin 1 → Fin S850008x1.rank)
  slices_S2x128x128_S1x128x128_0_0_0 : S2x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S850008x1_S850008x128_0_1 : S850008x1.BroadcastsInDim S850008x128 (![0, 1] : Fin 2 → Fin S850008x128.rank)
  bcast_S_S50000x128 : S_.BroadcastsInDim S50000x128 (![] : Fin 0 → Fin S50000x128.rank)
  slices_S2x128_S1x128_0_0 : S2x128.Slices ![0, 0] S1x128
  shapeCasts_S1x128_S128 : S1x128.ShapeCasts S128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  slices_S2x128x128_S1x128x128_1_0_0 : S2x128x128.Slices ![1, 0, 0] S1x128x128
  slices_S2x128_S1x128_1_0 : S2x128.Slices ![1, 0] S1x128
  shapeCasts_S50000x128_S8x6250x128 : S50000x128.ShapeCasts S8x6250x128
  scatter_S50000_S850008x1_S850008_n_0_0_1_wf : ScatterDims.WF S50000 S850008x1 S850008 [] [0] [0] 1
  gather_S50000_S850008x1_S850008_n_0_n_n_0_1_1_wf : GatherDims.WF S50000 S850008x1 S850008 [] [0] [] [0] [] 1 ![1]
  dot_S5000x128_S128x128_S5000x128_1_0_0_1_n_n_wf : DotDims.WF S5000x128 S128x128 S5000x128 [1] [0] [0] [1] [] []
  gather_S50000x128_S850008x1_S850008x128_1_0_n_n_0_1_1128_wf : GatherDims.WF S50000x128 S850008x1 S850008x128 [1] [0] [] [0] [] 1 ![1, 128]
  scatter_S50000x128_S850008x1_S850008x128_1_0_0_1_wf : ScatterDims.WF S50000x128 S850008x1 S850008x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)

variable [Facts₀]

def scatter_S50000_S850008x1_S850008_n_0_0_1 : ScatterDims S50000 S850008x1 S850008 where
  updateWindowDims := []
  insertedWindowDims := [0]
  scatterDimsToOperandDims := [0]
  indexVectorDim := 1
  wf := scatter_S50000_S850008x1_S850008_n_0_0_1_wf
def gather_S50000_S850008x1_S850008_n_0_n_n_0_1_1 : GatherDims S50000 S850008x1 S850008 where
  offsetDims := []
  collapsedSliceDims := [0]
  operandBatchingDims := []
  startIndicesBatchingDims := []
  startIndexMap := [0]
  indexVectorDim := 1
  sliceSizes := ![1]
  wf := gather_S50000_S850008x1_S850008_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850008x1_S850008x128_1_0_n_n_0_1_1128 : GatherDims S50000x128 S850008x1 S850008x128 where
  offsetDims := [1]
  collapsedSliceDims := [0]
  operandBatchingDims := []
  startIndicesBatchingDims := []
  startIndexMap := [0]
  indexVectorDim := 1
  sliceSizes := ![1, 128]
  wf := gather_S50000x128_S850008x1_S850008x128_1_0_n_n_0_1_1128_wf
def scatter_S50000x128_S850008x1_S850008x128_1_0_0_1 : ScatterDims S50000x128 S850008x1 S850008x128 where
  updateWindowDims := [1]
  insertedWindowDims := [0]
  scatterDimsToOperandDims := [0]
  indexVectorDim := 1
  wf := scatter_S50000x128_S850008x1_S850008x128_1_0_0_1_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v50) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v68) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S8x6250x128 : Shape := ⟨3, ![8, 6250, 128]⟩
abbrev S2x800000 : Shape := ⟨2, ![2, 800000]⟩
abbrev S2x128x128 : Shape := ⟨3, ![2, 128, 128]⟩
abbrev S2x128 : Shape := ⟨2, ![2, 128]⟩
abbrev S50000x128 : Shape := ⟨2, ![50000, 128]⟩
abbrev S8 : Shape := ⟨1, ![8]⟩
abbrev S50000 : Shape := ⟨1, ![50000]⟩
abbrev S1x800000 : Shape := ⟨2, ![1, 800000]⟩
abbrev S800000 : Shape := ⟨1, ![800000]⟩
abbrev S850008 : Shape := ⟨1, ![850008]⟩
abbrev S_ : Shape := ⟨0, ![]⟩
abbrev S850008x1 : Shape := ⟨2, ![850008, 1]⟩
abbrev S1x128x128 : Shape := ⟨3, ![1, 128, 128]⟩
abbrev S128x128 : Shape := ⟨2, ![128, 128]⟩
abbrev S850008x128 : Shape := ⟨2, ![850008, 128]⟩
abbrev S1x128 : Shape := ⟨2, ![1, 128]⟩
abbrev S128 : Shape := ⟨1, ![128]⟩

abbrev nBuf : Space → Nat
  | .hbm => 103
  | .vmem => 0
  | .smem => 0
  | _ => 0

abbrev bufTy : (tb : Table) → Fin (tcTables nBuf tb) → BufTy
  | .hbm, ⟨0, _⟩ => ⟨S8x6250x128, .f32⟩
  | .hbm, ⟨1, _⟩ => ⟨S2x800000, .i32⟩
  | .hbm, ⟨2, _⟩ => ⟨S2x128x128, .f32⟩
  | .hbm, ⟨3, _⟩ => ⟨S2x128, .f32⟩
  | .hbm, ⟨4, _⟩ => ⟨S50000x128, .f32⟩
  | .hbm, ⟨5, _⟩ => ⟨S8, .i32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850008, .i32⟩
  | .hbm, ⟨10, _⟩ => ⟨S1x800000, .i32⟩
  | .hbm, ⟨11, _⟩ => ⟨S800000, .i32⟩
  | .hbm, ⟨12, _⟩ => ⟨S850008, .i32⟩
  | .hbm, ⟨13, _⟩ => ⟨S_, .f32⟩
  | .hbm, ⟨14, _⟩ => ⟨S850008, .f32⟩
  | .hbm, ⟨15, _⟩ => ⟨S_, .f32⟩
  | .hbm, ⟨16, _⟩ => ⟨S50000, .f32⟩
  | .hbm, ⟨17, _⟩ => ⟨S850008x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850008, .i32⟩
  | .hbm, ⟨29, _⟩ => ⟨S850008, .i1⟩
  | .hbm, ⟨30, _⟩ => ⟨S_, .i32⟩
  | .hbm, ⟨31, _⟩ => ⟨S850008, .i32⟩
  | .hbm, ⟨32, _⟩ => ⟨S850008, .i32⟩
  | .hbm, ⟨33, _⟩ => ⟨S850008, .i32⟩
  | .hbm, ⟨34, _⟩ => ⟨S850008x1, .i32⟩
  | .hbm, ⟨35, _⟩ => ⟨S850008, .f32⟩
  | .hbm, ⟨36, _⟩ => ⟨S_, .i32⟩
  | .hbm, ⟨37, _⟩ => ⟨S850008, .i32⟩
  | .hbm, ⟨38, _⟩ => ⟨S850008, .i1⟩
  | .hbm, ⟨39, _⟩ => ⟨S_, .i32⟩
  | .hbm, ⟨40, _⟩ => ⟨S850008, .i32⟩
  | .hbm, ⟨41, _⟩ => ⟨S850008, .i32⟩
  | .hbm, ⟨42, _⟩ => ⟨S850008, .i32⟩
  | .hbm, ⟨43, _⟩ => ⟨S850008x1, .i32⟩
  | .hbm, ⟨44, _⟩ => ⟨S850008, .f32⟩
  | .hbm, ⟨45, _⟩ => ⟨S850008, .f32⟩
  | .hbm, ⟨46, _⟩ => ⟨S1x128x128, .f32⟩
  | .hbm, ⟨47, _⟩ => ⟨S128x128, .f32⟩
  | .hbm, ⟨48, _⟩ => ⟨S50000x128, .f32⟩
  | .hbm, ⟨49, _⟩ => ⟨S_, .i32⟩
  | .hbm, ⟨50, _⟩ => ⟨S850008, .i32⟩
  | .hbm, ⟨51, _⟩ => ⟨S850008, .i1⟩
  | .hbm, ⟨52, _⟩ => ⟨S_, .i32⟩
  | .hbm, ⟨53, _⟩ => ⟨S850008, .i32⟩
  | .hbm, ⟨54, _⟩ => ⟨S850008, .i32⟩
  | .hbm, ⟨55, _⟩ => ⟨S850008, .i32⟩
  | .hbm, ⟨56, _⟩ => ⟨S850008x1, .i32⟩
  | .hbm, ⟨57, _⟩ => ⟨S850008x128, .f32⟩
  | .hbm, ⟨58, _⟩ => ⟨S850008x1, .f32⟩
  | .hbm, ⟨59, _⟩ => ⟨S850008x128, .f32⟩
  | .hbm, ⟨60, _⟩ => ⟨S850008x128, .f32⟩
  | .hbm, ⟨61, _⟩ => ⟨S_, .f32⟩
  | .hbm, ⟨62, _⟩ => ⟨S50000x128, .f32⟩
  | .hbm, ⟨63, _⟩ => ⟨S850008x1, .i32⟩
  | .hbm, ⟨64, _⟩ => ⟨S50000x128, .f32⟩
  | .hbm, ⟨65, _⟩ => ⟨S1x128, .f32⟩
  | .hbm, ⟨66, _⟩ => ⟨S128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x128x128, .f32⟩
  | .hbm, ⟨75, _⟩ => ⟨S128x128, .f32⟩
  | .hbm, ⟨76, _⟩ => ⟨S50000x128, .f32⟩
  | .hbm, ⟨77, _⟩ => ⟨S_, .i32⟩
  | .hbm, ⟨78, _⟩ => ⟨S850008, .i32⟩
  | .hbm, ⟨79, _⟩ => ⟨S850008, .i1⟩
  | .hbm, ⟨80, _⟩ => ⟨S_, .i32⟩
  | .hbm, ⟨81, _⟩ => ⟨S850008, .i32⟩
  | .hbm, ⟨82, _⟩ => ⟨S850008, .i32⟩
  | .hbm, ⟨83, _⟩ => ⟨S850008, .i32⟩
  | .hbm, ⟨84, _⟩ => ⟨S850008x1, .i32⟩
  | .hbm, ⟨85, _⟩ => ⟨S850008x128, .f32⟩
  | .hbm, ⟨86, _⟩ => ⟨S850008x1, .f32⟩
  | .hbm, ⟨87, _⟩ => ⟨S850008x128, .f32⟩
  | .hbm, ⟨88, _⟩ => ⟨S850008x128, .f32⟩
  | .hbm, ⟨89, _⟩ => ⟨S_, .f32⟩
  | .hbm, ⟨90, _⟩ => ⟨S50000x128, .f32⟩
  | .hbm, ⟨91, _⟩ => ⟨S850008x1, .i32⟩
  | .hbm, ⟨92, _⟩ => ⟨S50000x128, .f32⟩
  | .hbm, ⟨93, _⟩ => ⟨S1x128, .f32⟩
  | .hbm, ⟨94, _⟩ => ⟨S128, .f32⟩
  | .hbm, ⟨95, _⟩ => ⟨S1x128, .f32⟩
  | .hbm, ⟨96, _⟩ => ⟨S50000x128, .f32⟩
  | .hbm, ⟨97, _⟩ => ⟨S50000x128, .f32⟩
  | .hbm, ⟨98, _⟩ => ⟨S_, .f32⟩
  | .hbm, ⟨99, _⟩ => ⟨S50000x128, .f32⟩
  | .hbm, ⟨100, _⟩ => ⟨S50000x128, .f32⟩
  | .hbm, ⟨101, _⟩ => ⟨S50000x128, .f32⟩
  | .hbm, ⟨102, _⟩ => ⟨S8x6250x128, .f32⟩
  | _, _ => ⟨S8x6250x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_call1_cst : Ref sig .tc := ⟨.hbm, 70, rfl⟩
abbrev main_call1_v0 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_9 : Ref sig .tc := ⟨.hbm, 77, rfl⟩
abbrev main_v58 : Ref sig .tc := ⟨.hbm, 78, rfl⟩
abbrev main_v59 : Ref sig .tc := ⟨.hbm, 79, rfl⟩
abbrev main_c_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_11 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_call2_cst : Ref sig .tc := ⟨.hbm, 98, rfl⟩
abbrev main_call2_v0 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩

abbrev nD : Nat := 1
abbrev τ : Topo := Topo.v7x

variable {F : FTy → Type} [FloatOps F]

class Facts₀ : Prop where
  shapeCasts_S8x6250x128_S50000x128 : S8x6250x128.ShapeCasts S50000x128
  slices_S2x800000_S1x800000_0_0 : S2x800000.Slices ![0, 0] S1x800000
  shapeCasts_S1x800000_S800000 : S1x800000.ShapeCasts S800000
  concatenates_S800000_S8_S50000_S850008_d0 : Shape.Concatenates [S800000, S8, S50000] S850008 0
  slices_S2x800000_S1x800000_1_0 : S2x800000.Slices ![1, 0] S1x800000
  bcast_S_S850008 : S_.BroadcastsInDim S850008 (![] : Fin 0 → Fin S850008.rank)
  bcast_S_S50000 : S_.BroadcastsInDim S50000 (![] : Fin 0 → Fin S50000.rank)
  bcast_S850008_S850008x1_0 : S850008.BroadcastsInDim S850008x1 (![0] : Fin 1 → Fin S850008x1.rank)
  slices_S2x128x128_S1x128x128_0_0_0 : S2x128x128.Slices ![0, 0, 0] S1x128x128
  shapeCasts_S1x128x128_S128x128 : S1x128x128.ShapeCasts S128x128
  bcast_S850008x1_S850008x128_0_1 : S850008x1.BroadcastsInDim S850008x128 (![0, 1] : Fin 2 → Fin S850008x128.rank)
  bcast_S_S50000x128 : S_.BroadcastsInDim S50000x128 (![] : Fin 0 → Fin S50000x128.rank)
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x128x128_S1x128x128_1_0_0 : S2x128x128.Slices ![1, 0, 0] S1x128x128
  slices_S2x128_S1x128_1_0 : S2x128.Slices ![1, 0] S1x128
  shapeCasts_S50000x128_S8x6250x128 : S50000x128.ShapeCasts S8x6250x128
  scatter_S50000_S850008x1_S850008_n_0_0_1_wf : ScatterDims.WF S50000 S850008x1 S850008 [] [0] [0] 1
  gather_S50000_S850008x1_S850008_n_0_n_n_0_1_1_wf : GatherDims.WF S50000 S850008x1 S850008 [] [0] [] [0] [] 1 ![1]
  dot_S50000x128_S128x128_S50000x128_1_0_0_1_n_n_wf : DotDims.WF S50000x128 S128x128 S50000x128 [1] [0] [0] [1] [] []
  gather_S50000x128_S850008x1_S850008x128_1_0_n_n_0_1_1128_wf : GatherDims.WF S50000x128 S850008x1 S850008x128 [1] [0] [] [0] [] 1 ![1, 128]
  scatter_S50000x128_S850008x1_S850008x128_1_0_0_1_wf : ScatterDims.WF S50000x128 S850008x1 S850008x128 [1] [0] [0] 1

variable [Facts₀]

def scatter_S50000_S850008x1_S850008_n_0_0_1 : ScatterDims S50000 S850008x1 S850008 where
  updateWindowDims := []
  insertedWindowDims := [0]
  scatterDimsToOperandDims := [0]
  indexVectorDim := 1
  wf := scatter_S50000_S850008x1_S850008_n_0_0_1_wf
def gather_S50000_S850008x1_S850008_n_0_n_n_0_1_1 : GatherDims S50000 S850008x1 S850008 where
  offsetDims := []
  collapsedSliceDims := [0]
  operandBatchingDims := []
  startIndicesBatchingDims := []
  startIndexMap := [0]
  indexVectorDim := 1
  sliceSizes := ![1]
  wf := gather_S50000_S850008x1_S850008_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850008x1_S850008x128_1_0_n_n_0_1_1128 : GatherDims S50000x128 S850008x1 S850008x128 where
  offsetDims := [1]
  collapsedSliceDims := [0]
  operandBatchingDims := []
  startIndicesBatchingDims := []
  startIndexMap := [0]
  indexVectorDim := 1
  sliceSizes := ![1, 128]
  wf := gather_S50000x128_S850008x1_S850008x128_1_0_n_n_0_1_1128_wf
def scatter_S50000x128_S850008x1_S850008x128_1_0_0_1 : ScatterDims S50000x128 S850008x1 S850008x128 where
  updateWindowDims := [1]
  insertedWindowDims := [0]
  scatterDimsToOperandDims := [0]
  indexVectorDim := 1
  wf := scatter_S50000x128_S850008x1_S850008x128_1_0_0_1_wf

class Facts : Prop extends Facts₀ where

variable [Facts]
-- ==== Proof.KReg0.lean ====
/-
  Region 0 of @main: the dense projection h = x · W on 5000-row blocks. Window 0 is the node-feature block of the grid
  point, window 1 the whole [128, 128] weight, window 2 the output block. Here: each window's block at a point as a
  read of its array at the region's entry, the one store of the body as a function of the two loaded blocks, the body's
  triple on whole staging buffers, the proof data of the pipeline and its body obligation at every point.
-/
import proofs.«104043_j65094524338803_1_alg».proof.Proof.Gen.Kernel.Launch
import proofs.«104043_j65094524338803_1_alg».proof.Proof.Gen.Kernel.Skeleton
import proofs.«104043_j65094524338803_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the weight at every point (fetched once, its index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole [5000, 128] block and the whole [128, 128] weight, as rectangles. -/
abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0

/-- The output block after the body: its one whole-block store of the product of the two loaded blocks. -/
def out0_2 (x0 : Vec F S5000x128 .f32) (x1 : Vec F S128x128 .f32) : Vec F S5000x128 .f32 :=
  View.canon [⟨r0_0, k0_pay1 (View.ld x0 r0_0) (View.ld x1 r0_1)⟩]

/-- The one store covers the block. -/
theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

set_option maxHeartbeats 4000000 in
/-- The body on whole staging buffers: the two inputs at `x0`, `x1` and the output at anything run to the inputs
    unchanged and the output at `out0_2 x0 x1` (the body also loads the output block before storing; the loaded
    value is not used). -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the pipeline on core `c`: the arrays as the region finds them; after the body at point `t` each
    input's buffer at its block and the output's at the product of the two input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KReg1.lean ====
/-
  Region 1 of @main: the residual update x + max(agg + b, 0) on 5000-row blocks. Window 0 is the node-feature block of
  the grid point, window 1 the aggregated-message block, window 2 the whole bias [128], window 3 the output block.
  Here: each window's block at a point as a read of its array at the region's entry, the one store of the body as a
  function of the three loaded blocks, the body's triple on whole staging buffers, the proof data of the pipeline and
  its body obligation at every point.
-/
import proofs.«104043_j65094524338803_1_alg».proof.Proof.Gen.Kernel.Launch
import proofs.«104043_j65094524338803_1_alg».proof.Proof.Gen.Kernel.Skeleton
import proofs.«104043_j65094524338803_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole [5000, 128] block and the whole [128] bias, as rectangles. -/
abbrev r1_0 : Rect S5000x128 := Rect.unit (s := S5000x128) ![0, 0] S5000x128.size inb_S5000x128_S5000x128_0_0
abbrev r1_1 : Rect S128 := Rect.unit (s := S128) ![0] S128.size inb_S128_S128_0

/-- The output block after the body: its one whole-block store of the update of the three loaded blocks (the bias, the
    aggregated messages, the features, in the body's order of loading). -/
def out1_3 (x0 : Vec F S5000x128 .f32) (x1 : Vec F S5000x128 .f32) (x2 : Vec F S128 .f32) : Vec F S5000x128 .f32 :=
  View.canon [⟨r1_0, k1_pay1 (View.ld x2 r1_1) (View.ld x1 r1_0) (View.ld x0 r1_0)⟩]

/-- The one store covers the block. -/
theorem cover1_3 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

set_option maxHeartbeats 4000000 in
/-- The body on whole staging buffers: the three inputs at `x0`, `x1`, `x2` and the output at anything run to the
    inputs unchanged and the output at `out1_3 x0 x1 x2` (the body also loads the output block before storing; the
    loaded value is not used). -/
theorem sound_kernel1 (c : Dev nD) (E : Set ℕ) (i : grid1.Coords) (arg1 : Memref sig .tc .vmem S5000x128 .f32) (harg1 : arg1.IsWhole)
    (arg2 : Memref sig .tc .vmem S5000x128 .f32) (harg2 : arg2.IsWhole) (arg3 : Memref sig .tc .vmem S128 .f32) (harg3 : arg3.IsWhole)
    (arg4 : Memref sig .tc .vmem S5000x128 .f32) (harg4 : arg4.IsWhole)
    (x0 : Vec F S5000x128 .f32) (x1 : Vec F S5000x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__combine_kernel i arg1 harg1 arg2 harg2 arg3 harg3 arg4 harg4) K := by
  simp only [cc1__combine_kernel_eq_skeleton]; unfold cc1__combine_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the pipeline on core `c`: the arrays as the region finds them; after the body at point `t` each
    input's buffer at its block and the output's at the update of the three input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KReg2.lean ====
/-
  Region 2 of @main: the dense projection h = x · W on 5000-row blocks. Window 0 is the node-feature block of the grid
  point, window 1 the whole [128, 128] weight, window 2 the output block. Here: each window's block at a point as a
  read of its array at the region's entry, the one store of the body as a function of the two loaded blocks, the body's
  triple on whole staging buffers, the proof data of the pipeline and its body obligation at every point.
-/
import proofs.«104043_j65094524338803_1_alg».proof.Proof.Gen.Kernel.Launch
import proofs.«104043_j65094524338803_1_alg».proof.Proof.Gen.Kernel.Skeleton
import proofs.«104043_j65094524338803_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The feature window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's staging buffer holds the weight at every point (fetched once, its index never moves). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole [5000, 128] block and the whole [128, 128] weight, as rectangles. -/
abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0

/-- The output block after the body: its one whole-block store of the product of the two loaded blocks. -/
def out2_2 (x0 : Vec F S5000x128 .f32) (x1 : Vec F S128x128 .f32) : Vec F S5000x128 .f32 :=
  View.canon [⟨r2_0, k2_pay1 (View.ld x0 r2_0) (View.ld x1 r2_1)⟩]

/-- The one store covers the block. -/
theorem cover2_2 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

set_option maxHeartbeats 4000000 in
/-- The body on whole staging buffers: the two inputs at `x0`, `x1` and the output at anything run to the inputs
    unchanged and the output at `out2_2 x0 x1` (the body also loads the output block before storing; the loaded
    value is not used). -/
theorem sound_kernel2 (c : Dev nD) (E : Set ℕ) (i : grid2.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of the pipeline on core `c`: the arrays as the region finds them; after the body at point `t` each
    input's buffer at its block and the output's at the product of the two input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KReg3.lean ====
/-
  Region 3 of @main: the residual update x + max(agg + b, 0) on 5000-row blocks. Window 0 is the node-feature block of
  the grid point, window 1 the aggregated-message block, window 2 the whole bias [128], window 3 the output block.
  Here: each window's block at a point as a read of its array at the region's entry, the one store of the body as a
  function of the three loaded blocks, the body's triple on whole staging buffers, the proof data of the pipeline and
  its body obligation at every point.
-/
import proofs.«104043_j65094524338803_1_alg».proof.Proof.Gen.Kernel.Launch
import proofs.«104043_j65094524338803_1_alg».proof.Proof.Gen.Kernel.Skeleton
import proofs.«104043_j65094524338803_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole [5000, 128] block and the whole [128] bias, as rectangles. -/
abbrev r3_0 : Rect S5000x128 := Rect.unit (s := S5000x128) ![0, 0] S5000x128.size inb_S5000x128_S5000x128_0_0
abbrev r3_1 : Rect S128 := Rect.unit (s := S128) ![0] S128.size inb_S128_S128_0

/-- The output block after the body: its one whole-block store of the update of the three loaded blocks (the bias, the
    aggregated messages, the features, in the body's order of loading). -/
def out3_3 (x0 : Vec F S5000x128 .f32) (x1 : Vec F S5000x128 .f32) (x2 : Vec F S128 .f32) : Vec F S5000x128 .f32 :=
  View.canon [⟨r3_0, k3_pay1 (View.ld x2 r3_1) (View.ld x1 r3_0) (View.ld x0 r3_0)⟩]

/-- The one store covers the block. -/
theorem cover3_3 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

set_option maxHeartbeats 4000000 in
/-- The body on whole staging buffers: the three inputs at `x0`, `x1`, `x2` and the output at anything run to the
    inputs unchanged and the output at `out3_3 x0 x1 x2` (the body also loads the output block before storing; the
    loaded value is not used). -/
theorem sound_kernel3 (c : Dev nD) (E : Set ℕ) (i : grid3.Coords) (arg1 : Memref sig .tc .vmem S5000x128 .f32) (harg1 : arg1.IsWhole)
    (arg2 : Memref sig .tc .vmem S5000x128 .f32) (harg2 : arg2.IsWhole) (arg3 : Memref sig .tc .vmem S128 .f32) (harg3 : arg3.IsWhole)
    (arg4 : Memref sig .tc .vmem S5000x128 .f32) (harg4 : arg4.IsWhole)
    (x0 : Vec F S5000x128 .f32) (x1 : Vec F S5000x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__combine_kernel i arg1 harg1 arg2 harg2 arg3 harg3 arg4 harg4) K := by
  simp only [cc3__combine_kernel_eq_skeleton]; unfold cc3__combine_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of the pipeline on core `c`: the arrays as the region finds them; after the body at point `t` each
    input's buffer at its block and the output's at the update of the three input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KRun.lean ====
/-
  The run of @main: three stretches of host operations, the projection kernel, a stretch (gather, scale, scatter-add), the
  update kernel, and the same again for the second layer, then the final reshape. Here: the contents of every unscoped
  buffer at each of the twelve boundaries between these items, as a fold from the launch memory (a host stretch applies
  its operations; a kernel region replaces its output array by what its write-backs leave); that no item changes an
  argument array; every pipeline's proof data at its region's entry contents; each region as a segment between two
  boundaries; and the run itself: every weakly fair execution of @main terminates, nothing faulting, and every unscoped
  buffer ends at the last boundary's contents. The frame claim follows.
-/
import proofs.«104043_j65094524338803_1_alg».proof.Proof.KReg0
import proofs.«104043_j65094524338803_1_alg».proof.Proof.KReg1
import proofs.«104043_j65094524338803_1_alg».proof.Proof.KReg2
import proofs.«104043_j65094524338803_1_alg».proof.Proof.KReg3
import proofs.«104043_j65094524338803_1_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev Bd0 : Dev nD → Valuation τ sig (Elt F) := fun c b => (s₀ m ρ).mem ((c : Dev nD), b)

/-- After `hostOps0`. -/
abbrev Bd1 : Dev nD → Valuation τ sig (Elt F) := fun c => StableHlo.after hostOps0 (Bd0 m ρ c)
abbrev Vw1 : (c : Dev nD) → (b : Ref sig .tc) → Buf (Elt F) ((c : Thread nD τ).loc b) := fun c b => Bd1 m ρ c b
/-- A buffer `hostOps0` does not write is as before it. -/
theorem Bd1_of (c : Dev nD) (r : Ref sig .tc) (h : r ∉ hostOps0_W) : Bd1 m ρ c r = Bd0 m ρ c r :=
  StableHlo.after_of_writes_sub hostOps0 _ hostOps0_writes h

/-- After `hostOps0_1`. -/
abbrev Bd2 : Dev nD → Valuation τ sig (Elt F) := fun c => StableHlo.after hostOps0_1 (Bd1 m ρ c)
abbrev Vw2 : (c : Dev nD) → (b : Ref sig .tc) → Buf (Elt F) ((c : Thread nD τ).loc b) := fun c b => Bd2 m ρ c b
/-- A buffer `hostOps0_1` does not write is as before it. -/
theorem Bd2_of (c : Dev nD) (r : Ref sig .tc) (h : r ∉ hostOps0_1_W) : Bd2 m ρ c r = Bd1 m ρ c r :=
  StableHlo.after_of_writes_sub hostOps0_1 _ hostOps0_1_writes h

/-- After `hostOps0_2`. -/
abbrev Bd3 : Dev nD → Valuation τ sig (Elt F) := fun c => StableHlo.after hostOps0_2 (Bd2 m ρ c)
abbrev Vw3 : (c : Dev nD) → (b : Ref sig .tc) → Buf (Elt F) ((c : Thread nD τ).loc b) := fun c b => Bd3 m ρ c b
/-- A buffer `hostOps0_2` does not write is as before it. -/
theorem Bd3_of (c : Dev nD) (r : Ref sig .tc) (h : r ∉ hostOps0_2_W) : Bd3 m ρ c r = Bd2 m ρ c r :=
  StableHlo.after_of_writes_sub hostOps0_2 _ hostOps0_2_writes h

/-- At region 0's exit: its arrays at what the pipeline leaves (the inputs as entered, the output's write-backs folded),
    every other buffer as entered. -/
def Bd4 (c : Dev nD) : Valuation τ sig (Elt F) :=
  Pipeline.withArrays spec0 c (Bd3 m ρ c) fun w => (dat0 (Vw3 m ρ) c).arrAt w cfg0.N
theorem Bd4_arr (c : Dev nD) (w : Fin cfg0.W) :
    Bd4 m ρ c (Proc.devRef .tc (Pipeline.arrRef spec0 w)) = (dat0 (Vw3 m ρ) c).arrAt w cfg0.N := by
  unfold Bd4; exact Pipeline.withArrays_arr spec0 launch0.win.arr_inj c _ _ w
theorem Bd4_of_ne (c : Dev nD) (b : Ref sig .tc) (hb : ∀ w, Pipeline.arrRef spec0 w ≠ b) :
    Bd4 m ρ c (Proc.devRef .tc b) = Bd3 m ρ c (Proc.devRef .tc b) := by
  unfold Bd4; exact Pipeline.withArrays_of_ne spec0 c _ _ b hb
/-- The same read at the TensorCore's references. -/
abbrev Vw4 : (c : Dev nD) → (b : Ref sig .tc) → Buf (Elt F) ((c : Thread nD τ).loc b) := fun c b => Bd4 m ρ c b
theorem hF0 (c : Dev nD) (w : Fin cfg0.W) : (dat0 (Vw3 m ρ) c).arrAt w cfg0.N = Vw4 m ρ c (Pipeline.arrRef spec0 w) :=
  (Bd4_arr m ρ c w).symm
theorem hrest0 (c : Dev nD) : ∀ b, b ∉ Finset.univ.image (Pipeline.arrRef spec0) → Vw4 m ρ c b = Vw3 m ρ c b :=
  fun b hb => Bd4_of_ne m ρ c b fun w e => hb (Finset.mem_image.mpr ⟨w, Finset.mem_univ _, e⟩)

/-- After `hostOps1`. -/
abbrev Bd5 : Dev nD → Valuation τ sig (Elt F) := fun c => StableHlo.after hostOps1 (Bd4 m ρ c)
abbrev Vw5 : (c : Dev nD) → (b : Ref sig .tc) → Buf (Elt F) ((c : Thread nD τ).loc b) := fun c b => Bd5 m ρ c b
/-- A buffer `hostOps1` does not write is as before it. -/
theorem Bd5_of (c : Dev nD) (r : Ref sig .tc) (h : r ∉ hostOps1_W) : Bd5 m ρ c r = Bd4 m ρ c r :=
  StableHlo.after_of_writes_sub hostOps1 _ hostOps1_writes h

/-- At region 1's exit: its arrays at what the pipeline leaves (the inputs as entered, the output's write-backs folded),
    every other buffer as entered. -/
def Bd6 (c : Dev nD) : Valuation τ sig (Elt F) :=
  Pipeline.withArrays spec1 c (Bd5 m ρ c) fun w => (dat1 (Vw5 m ρ) c).arrAt w cfg1.N
theorem Bd6_arr (c : Dev nD) (w : Fin cfg1.W) :
    Bd6 m ρ c (Proc.devRef .tc (Pipeline.arrRef spec1 w)) = (dat1 (Vw5 m ρ) c).arrAt w cfg1.N := by
  unfold Bd6; exact Pipeline.withArrays_arr spec1 launch1.win.arr_inj c _ _ w
theorem Bd6_of_ne (c : Dev nD) (b : Ref sig .tc) (hb : ∀ w, Pipeline.arrRef spec1 w ≠ b) :
    Bd6 m ρ c (Proc.devRef .tc b) = Bd5 m ρ c (Proc.devRef .tc b) := by
  unfold Bd6; exact Pipeline.withArrays_of_ne spec1 c _ _ b hb
/-- The same read at the TensorCore's references. -/
abbrev Vw6 : (c : Dev nD) → (b : Ref sig .tc) → Buf (Elt F) ((c : Thread nD τ).loc b) := fun c b => Bd6 m ρ c b
theorem hF1 (c : Dev nD) (w : Fin cfg1.W) : (dat1 (Vw5 m ρ) c).arrAt w cfg1.N = Vw6 m ρ c (Pipeline.arrRef spec1 w) :=
  (Bd6_arr m ρ c w).symm
theorem hrest1 (c : Dev nD) : ∀ b, b ∉ Finset.univ.image (Pipeline.arrRef spec1) → Vw6 m ρ c b = Vw5 m ρ c b :=
  fun b hb => Bd6_of_ne m ρ c b fun w e => hb (Finset.mem_image.mpr ⟨w, Finset.mem_univ _, e⟩)

/-- After `hostOps2`. -/
abbrev Bd7 : Dev nD → Valuation τ sig (Elt F) := fun c => StableHlo.after hostOps2 (Bd6 m ρ c)
abbrev Vw7 : (c : Dev nD) → (b : Ref sig .tc) → Buf (Elt F) ((c : Thread nD τ).loc b) := fun c b => Bd7 m ρ c b
/-- A buffer `hostOps2` does not write is as before it. -/
theorem Bd7_of (c : Dev nD) (r : Ref sig .tc) (h : r ∉ hostOps2_W) : Bd7 m ρ c r = Bd6 m ρ c r :=
  StableHlo.after_of_writes_sub hostOps2 _ hostOps2_writes h

/-- At region 2's exit: its arrays at what the pipeline leaves (the inputs as entered, the output's write-backs folded),
    every other buffer as entered. -/
def Bd8 (c : Dev nD) : Valuation τ sig (Elt F) :=
  Pipeline.withArrays spec2 c (Bd7 m ρ c) fun w => (dat2 (Vw7 m ρ) c).arrAt w cfg2.N
theorem Bd8_arr (c : Dev nD) (w : Fin cfg2.W) :
    Bd8 m ρ c (Proc.devRef .tc (Pipeline.arrRef spec2 w)) = (dat2 (Vw7 m ρ) c).arrAt w cfg2.N := by
  unfold Bd8; exact Pipeline.withArrays_arr spec2 launch2.win.arr_inj c _ _ w
theorem Bd8_of_ne (c : Dev nD) (b : Ref sig .tc) (hb : ∀ w, Pipeline.arrRef spec2 w ≠ b) :
    Bd8 m ρ c (Proc.devRef .tc b) = Bd7 m ρ c (Proc.devRef .tc b) := by
  unfold Bd8; exact Pipeline.withArrays_of_ne spec2 c _ _ b hb
/-- The same read at the TensorCore's references. -/
abbrev Vw8 : (c : Dev nD) → (b : Ref sig .tc) → Buf (Elt F) ((c : Thread nD τ).loc b) := fun c b => Bd8 m ρ c b
theorem hF2 (c : Dev nD) (w : Fin cfg2.W) : (dat2 (Vw7 m ρ) c).arrAt w cfg2.N = Vw8 m ρ c (Pipeline.arrRef spec2 w) :=
  (Bd8_arr m ρ c w).symm
theorem hrest2 (c : Dev nD) : ∀ b, b ∉ Finset.univ.image (Pipeline.arrRef spec2) → Vw8 m ρ c b = Vw7 m ρ c b :=
  fun b hb => Bd8_of_ne m ρ c b fun w e => hb (Finset.mem_image.mpr ⟨w, Finset.mem_univ _, e⟩)

/-- After `hostOps3`. -/
abbrev Bd9 : Dev nD → Valuation τ sig (Elt F) := fun c => StableHlo.after hostOps3 (Bd8 m ρ c)
abbrev Vw9 : (c : Dev nD) → (b : Ref sig .tc) → Buf (Elt F) ((c : Thread nD τ).loc b) := fun c b => Bd9 m ρ c b
/-- A buffer `hostOps3` does not write is as before it. -/
theorem Bd9_of (c : Dev nD) (r : Ref sig .tc) (h : r ∉ hostOps3_W) : Bd9 m ρ c r = Bd8 m ρ c r :=
  StableHlo.after_of_writes_sub hostOps3 _ hostOps3_writes h

/-- At region 3's exit: its arrays at what the pipeline leaves (the inputs as entered, the output's write-backs folded),
    every other buffer as entered. -/
def Bd10 (c : Dev nD) : Valuation τ sig (Elt F) :=
  Pipeline.withArrays spec3 c (Bd9 m ρ c) fun w => (dat3 (Vw9 m ρ) c).arrAt w cfg3.N
theorem Bd10_arr (c : Dev nD) (w : Fin cfg3.W) :
    Bd10 m ρ c (Proc.devRef .tc (Pipeline.arrRef spec3 w)) = (dat3 (Vw9 m ρ) c).arrAt w cfg3.N := by
  unfold Bd10; exact Pipeline.withArrays_arr spec3 launch3.win.arr_inj c _ _ w
theorem Bd10_of_ne (c : Dev nD) (b : Ref sig .tc) (hb : ∀ w, Pipeline.arrRef spec3 w ≠ b) :
    Bd10 m ρ c (Proc.devRef .tc b) = Bd9 m ρ c (Proc.devRef .tc b) := by
  unfold Bd10; exact Pipeline.withArrays_of_ne spec3 c _ _ b hb
/-- The same read at the TensorCore's references. -/
abbrev Vw10 : (c : Dev nD) → (b : Ref sig .tc) → Buf (Elt F) ((c : Thread nD τ).loc b) := fun c b => Bd10 m ρ c b
theorem hF3 (c : Dev nD) (w : Fin cfg3.W) : (dat3 (Vw9 m ρ) c).arrAt w cfg3.N = Vw10 m ρ c (Pipeline.arrRef spec3 w) :=
  (Bd10_arr m ρ c w).symm
theorem hrest3 (c : Dev nD) : ∀ b, b ∉ Finset.univ.image (Pipeline.arrRef spec3) → Vw10 m ρ c b = Vw9 m ρ c b :=
  fun b hb => Bd10_of_ne m ρ c b fun w e => hb (Finset.mem_image.mpr ⟨w, Finset.mem_univ _, e⟩)

/-- After `hostOps4`. -/
abbrev Bd11 : Dev nD → Valuation τ sig (Elt F) := fun c => StableHlo.after hostOps4 (Bd10 m ρ c)
abbrev Vw11 : (c : Dev nD) → (b : Ref sig .tc) → Buf (Elt F) ((c : Thread nD τ).loc b) := fun c b => Bd11 m ρ c b
/-- A buffer `hostOps4` does not write is as before it. -/
theorem Bd11_of (c : Dev nD) (r : Ref sig .tc) (h : r ∉ hostOps4_W) : Bd11 m ρ c r = Bd10 m ρ c r :=
  StableHlo.after_of_writes_sub hostOps4 _ hostOps4_writes h

/-! ## The arguments end as launched -/

/-- `main_arg0` ends as launched: no host operation writes it and it is no region's array. -/
theorem Bd11_main_arg0 (c : Dev nD) : Bd11 m ρ c (Proc.devRef .tc main_arg0) = m ((c : Thread nD τ).loc main_arg0) :=
  (Bd11_of m ρ c main_arg0 (by decide)).trans <| (Bd10_of_ne m ρ c main_arg0 (by decide)).trans <| (Bd9_of m ρ c main_arg0 (by decide)).trans <|
  (Bd8_of_ne m ρ c main_arg0 (by decide)).trans <| (Bd7_of m ρ c main_arg0 (by decide)).trans <| (Bd6_of_ne m ρ c main_arg0 (by decide)).trans <|
  (Bd5_of m ρ c main_arg0 (by decide)).trans <| (Bd4_of_ne m ρ c main_arg0 (by decide)).trans <| (Bd3_of m ρ c main_arg0 (by decide)).trans <|
  (Bd2_of m ρ c main_arg0 (by decide)).trans <| (Bd1_of m ρ c main_arg0 (by decide)).trans rfl

/-- `main_arg1` ends as launched: no host operation writes it and it is no region's array. -/
theorem Bd11_main_arg1 (c : Dev nD) : Bd11 m ρ c (Proc.devRef .tc main_arg1) = m ((c : Thread nD τ).loc main_arg1) :=
  (Bd11_of m ρ c main_arg1 (by decide)).trans <| (Bd10_of_ne m ρ c main_arg1 (by decide)).trans <| (Bd9_of m ρ c main_arg1 (by decide)).trans <|
  (Bd8_of_ne m ρ c main_arg1 (by decide)).trans <| (Bd7_of m ρ c main_arg1 (by decide)).trans <| (Bd6_of_ne m ρ c main_arg1 (by decide)).trans <|
  (Bd5_of m ρ c main_arg1 (by decide)).trans <| (Bd4_of_ne m ρ c main_arg1 (by decide)).trans <| (Bd3_of m ρ c main_arg1 (by decide)).trans <|
  (Bd2_of m ρ c main_arg1 (by decide)).trans <| (Bd1_of m ρ c main_arg1 (by decide)).trans rfl

/-- `main_arg2` ends as launched: no host operation writes it and it is no region's array. -/
theorem Bd11_main_arg2 (c : Dev nD) : Bd11 m ρ c (Proc.devRef .tc main_arg2) = m ((c : Thread nD τ).loc main_arg2) :=
  (Bd11_of m ρ c main_arg2 (by decide)).trans <| (Bd10_of_ne m ρ c main_arg2 (by decide)).trans <| (Bd9_of m ρ c main_arg2 (by decide)).trans <|
  (Bd8_of_ne m ρ c main_arg2 (by decide)).trans <| (Bd7_of m ρ c main_arg2 (by decide)).trans <| (Bd6_of_ne m ρ c main_arg2 (by decide)).trans <|
  (Bd5_of m ρ c main_arg2 (by decide)).trans <| (Bd4_of_ne m ρ c main_arg2 (by decide)).trans <| (Bd3_of m ρ c main_arg2 (by decide)).trans <|
  (Bd2_of m ρ c main_arg2 (by decide)).trans <| (Bd1_of m ρ c main_arg2 (by decide)).trans rfl

/-- `main_arg3` ends as launched: no host operation writes it and it is no region's array. -/
theorem Bd11_main_arg3 (c : Dev nD) : Bd11 m ρ c (Proc.devRef .tc main_arg3) = m ((c : Thread nD τ).loc main_arg3) :=
  (Bd11_of m ρ c main_arg3 (by decide)).trans <| (Bd10_of_ne m ρ c main_arg3 (by decide)).trans <| (Bd9_of m ρ c main_arg3 (by decide)).trans <|
  (Bd8_of_ne m ρ c main_arg3 (by decide)).trans <| (Bd7_of m ρ c main_arg3 (by decide)).trans <| (Bd6_of_ne m ρ c main_arg3 (by decide)).trans <|
  (Bd5_of m ρ c main_arg3 (by decide)).trans <| (Bd4_of_ne m ρ c main_arg3 (by decide)).trans <| (Bd3_of m ρ c main_arg3 (by decide)).trans <|
  (Bd2_of m ρ c main_arg3 (by decide)).trans <| (Bd1_of m ρ c main_arg3 (by decide)).trans rfl

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (Vw3 m ρ) c
  | ⟨1, _⟩ => fun c => dat1 (Vw5 m ρ) c
  | ⟨2, _⟩ => fun c => dat2 (Vw7 m ρ) c
  | ⟨3, _⟩ => fun c => dat3 (Vw9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (Bd11 m ρ c) ∗ ∃ r, prngReg c r)

/-! ## The regions as segments -/

set_option backward.isDefEq.respectTransparency.types false in
/-- Region 0 over the thread state: entered from every unscoped buffer at `Bd3`, left at `Bd4`. Its arrays are split
    out of the unscoped buffers and put back at the exit contents; the generator register goes into the class invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vw3 m ρ) c).loose
  hwaits := Pipeline.hwaits_of_owed_zero _ _ _ _ L lv 0 fun _ _ => rfl
  pre c := iprop(StableHlo.held (c : Thread nD τ) (Pipeline.ucRefs τ sig) (Bd3 m ρ c) ∗ R c)
  post c := iprop(StableHlo.held (c : Thread nD τ) (Pipeline.ucRefs τ sig) (Bd4 m ρ c) ∗ R c)
  X c := iprop(∃ r, prngReg c r)
  Y c := iprop(∃ r, prngReg c r)
  Z c := Pipeline.unscopedRest (Ix := Unit) (Name := ℕ) (U := UR sig nD τ) (Lvl := ℕ) spec0 c (Vw3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vw3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vw3 m ρ c) (Vw4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `Bd5`, left at `Bd6`. Its arrays are split
    out of the unscoped buffers and put back at the exit contents; the generator register goes into the class invariant and
    out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vw5 m ρ) c).loose
  hwaits := Pipeline.hwaits_of_owed_zero _ _ _ _ L lv 1 fun _ _ => rfl
  pre c := iprop(StableHlo.held (c : Thread nD τ) (Pipeline.ucRefs τ sig) (Bd5 m ρ c) ∗ R c)
  post c := iprop(StableHlo.held (c : Thread nD τ) (Pipeline.ucRefs τ sig) (Bd6 m ρ c) ∗ R c)
  X c := iprop(∃ r, prngReg c r)
  Y c := iprop(∃ r, prngReg c r)
  Z c := Pipeline.unscopedRest (Ix := Unit) (Name := ℕ) (U := UR sig nD τ) (Lvl := ℕ) spec1 c (Vw5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vw5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vw5 m ρ c) (Vw6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `Bd7`, left at `Bd8`. Its arrays are split
    out of the unscoped buffers and put back at the exit contents; the generator register goes into the class invariant and
    out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vw7 m ρ) c).loose
  hwaits := Pipeline.hwaits_of_owed_zero _ _ _ _ L lv 2 fun _ _ => rfl
  pre c := iprop(StableHlo.held (c : Thread nD τ) (Pipeline.ucRefs τ sig) (Bd7 m ρ c) ∗ R c)
  post c := iprop(StableHlo.held (c : Thread nD τ) (Pipeline.ucRefs τ sig) (Bd8 m ρ c) ∗ R c)
  X c := iprop(∃ r, prngReg c r)
  Y c := iprop(∃ r, prngReg c r)
  Z c := Pipeline.unscopedRest (Ix := Unit) (Name := ℕ) (U := UR sig nD τ) (Lvl := ℕ) spec2 c (Vw7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vw7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vw7 m ρ c) (Vw8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `Bd9`, left at `Bd10`. Its arrays are split
    out of the unscoped buffers and put back at the exit contents; the generator register goes into the class invariant and
    out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vw9 m ρ) c).loose
  hwaits := Pipeline.hwaits_of_owed_zero _ _ _ _ L lv 3 fun _ _ => rfl
  pre c := iprop(StableHlo.held (c : Thread nD τ) (Pipeline.ucRefs τ sig) (Bd9 m ρ c) ∗ R c)
  post c := iprop(StableHlo.held (c : Thread nD τ) (Pipeline.ucRefs τ sig) (Bd10 m ρ c) ∗ R c)
  X c := iprop(∃ r, prngReg c r)
  Y c := iprop(∃ r, prngReg c r)
  Z c := Pipeline.unscopedRest (Ix := Unit) (Name := ℕ) (U := UR sig nD τ) (Lvl := ℕ) spec3 c (Vw9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vw9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vw9 m ρ c) (Vw10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 11 segments in order. -/
abbrev segsAll : List (Pipeline.Seg (pcfgs (F := F)) adm (pdats m ρ) () defs₀ 𝒱₀ L lv) :=
  [ .host (hseg hostOps0 hostOps0_sub hostOps0_fresh (Bd0 m ρ)),
    .host (hseg hostOps0_1 hostOps0_1_sub hostOps0_1_fresh (Bd1 m ρ)),
    .host (hseg hostOps0_2 hostOps0_2_sub hostOps0_2_fresh (Bd2 m ρ)),
    .region (reg0 m ρ),
    .host (hseg hostOps1 hostOps1_sub hostOps1_fresh (Bd4 m ρ)),
    .region (reg1 m ρ),
    .host (hseg hostOps2 hostOps2_sub hostOps2_fresh (Bd6 m ρ)),
    .region (reg2 m ρ),
    .host (hseg hostOps3 hostOps3_sub hostOps3_fresh (Bd8 m ρ)),
    .region (reg3 m ρ),
    .host (hseg hostOps4 hostOps4_sub hostOps4_fresh (Bd10 m ρ)) ]

set_option backward.isDefEq.respectTransparency.types false in
/-- THE RUN: at the compiled mesh, from any memory with zero counters, every weakly fair execution of @main on the
    TensorCores terminates, nothing faulting, and every final state has every unscoped buffer at the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bd11 m ρ c b) :=
  Pipeline.θ_run_regions_kit (pcfgs (F := F)) adm (pdats m ρ) () cellOf_inj emb₁ defs₀ 𝒱₀ L lv m ρ main (segsAll m ρ)
    (fun c Q => by
      rewrite [main_chain c, Pipeline.Seg.run_eq_chain,
        show (segsAll m ρ).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (Bd11 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd11 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd11 m ρ c) s')
      isplitl [Hh] <;> iassumption)
    (hQ := fun s h => h)

/-- THE FRAME: every weakly fair execution of @main terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (Bd11_main_arg0 m ρ c),
     (h c _ (mem_uc main_arg1 (by decide))).trans (Bd11_main_arg1 m ρ c),
     (h c _ (mem_uc main_arg2 (by decide))).trans (Bd11_main_arg2 m ρ c),
     (h c _ (mem_uc main_arg3 (by decide))).trans (Bd11_main_arg3 m ρ c)⟩) (run_all m ρ)

end Cert.Kernel.Fr

end
-- ==== Proof.IReg0.lean ====
/-
  Region 0 of @main: the dense projection h = x · W on 5000-row blocks. Window 0 is the node-feature block of the grid
  point, window 1 the whole [128, 128] weight, window 2 the output block. Here: each window's block at a point as a
  read of its array at the region's entry, the one store of the body as a function of the two loaded blocks, the body's
  triple on whole staging buffers, the proof data of the pipeline and its body obligation at every point.
-/
import proofs.«104043_j65094524338803_1_alg».proof.Proof.Gen.KernelIdeal.Launch
import proofs.«104043_j65094524338803_1_alg».proof.Proof.Gen.KernelIdeal.Skeleton
import proofs.«104043_j65094524338803_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the weight at every point (fetched once, its index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole [5000, 128] block and the whole [128, 128] weight, as rectangles. -/
abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0

/-- The output block after the body: its one whole-block store of the product of the two loaded blocks. -/
def out0_2 (x0 : Vec F S5000x128 .f32) (x1 : Vec F S128x128 .f32) : Vec F S5000x128 .f32 :=
  View.canon [⟨r0_0, k0_pay1 (View.ld x0 r0_0) (View.ld x1 r0_1)⟩]

/-- The one store covers the block. -/
theorem cover0_2 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

set_option maxHeartbeats 4000000 in
/-- The body on whole staging buffers: the two inputs at `x0`, `x1` and the output at anything run to the inputs
    unchanged and the output at `out0_2 x0 x1` (the body also loads the output block before storing; the loaded
    value is not used). -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the pipeline on core `c`: the arrays as the region finds them; after the body at point `t` each
    input's buffer at its block and the output's at the product of the two input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.IReg1.lean ====
/-
  Region 1 of @main: the residual update x + max(agg + b, 0) on 5000-row blocks. Window 0 is the node-feature block of
  the grid point, window 1 the aggregated-message block, window 2 the whole bias [128], window 3 the output block.
  Here: each window's block at a point as a read of its array at the region's entry, the one store of the body as a
  function of the three loaded blocks, the body's triple on whole staging buffers, the proof data of the pipeline and
  its body obligation at every point.
-/
import proofs.«104043_j65094524338803_1_alg».proof.Proof.Gen.KernelIdeal.Launch
import proofs.«104043_j65094524338803_1_alg».proof.Proof.Gen.KernelIdeal.Skeleton
import proofs.«104043_j65094524338803_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole [5000, 128] block and the whole [128] bias, as rectangles. -/
abbrev r1_0 : Rect S5000x128 := Rect.unit (s := S5000x128) ![0, 0] S5000x128.size inb_S5000x128_S5000x128_0_0
abbrev r1_1 : Rect S128 := Rect.unit (s := S128) ![0] S128.size inb_S128_S128_0

/-- The output block after the body: its one whole-block store of the update of the three loaded blocks (the bias, the
    aggregated messages, the features, in the body's order of loading). -/
def out1_3 (x0 : Vec F S5000x128 .f32) (x1 : Vec F S5000x128 .f32) (x2 : Vec F S128 .f32) : Vec F S5000x128 .f32 :=
  View.canon [⟨r1_0, k1_pay1 (View.ld x2 r1_1) (View.ld x1 r1_0) (View.ld x0 r1_0)⟩]

/-- The one store covers the block. -/
theorem cover1_3 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

set_option maxHeartbeats 4000000 in
/-- The body on whole staging buffers: the three inputs at `x0`, `x1`, `x2` and the output at anything run to the
    inputs unchanged and the output at `out1_3 x0 x1 x2` (the body also loads the output block before storing; the
    loaded value is not used). -/
theorem sound_kernel1 (c : Dev nD) (E : Set ℕ) (i : grid1.Coords) (arg1 : Memref sig .tc .vmem S5000x128 .f32) (harg1 : arg1.IsWhole)
    (arg2 : Memref sig .tc .vmem S5000x128 .f32) (harg2 : arg2.IsWhole) (arg3 : Memref sig .tc .vmem S128 .f32) (harg3 : arg3.IsWhole)
    (arg4 : Memref sig .tc .vmem S5000x128 .f32) (harg4 : arg4.IsWhole)
    (x0 : Vec F S5000x128 .f32) (x1 : Vec F S5000x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__combine_kernel i arg1 harg1 arg2 harg2 arg3 harg3 arg4 harg4) K := by
  simp only [cc1__combine_kernel_eq_skeleton]; unfold cc1__combine_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the pipeline on core `c`: the arrays as the region finds them; after the body at point `t` each
    input's buffer at its block and the output's at the update of the three input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.IReg2.lean ====
/-
  Region 2 of @main: the dense projection h = x · W on 5000-row blocks. Window 0 is the node-feature block of the grid
  point, window 1 the whole [128, 128] weight, window 2 the output block. Here: each window's block at a point as a
  read of its array at the region's entry, the one store of the body as a function of the two loaded blocks, the body's
  triple on whole staging buffers, the proof data of the pipeline and its body obligation at every point.
-/
import proofs.«104043_j65094524338803_1_alg».proof.Proof.Gen.KernelIdeal.Launch
import proofs.«104043_j65094524338803_1_alg».proof.Proof.Gen.KernelIdeal.Skeleton
import proofs.«104043_j65094524338803_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The feature window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's staging buffer holds the weight at every point (fetched once, its index never moves). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole [5000, 128] block and the whole [128, 128] weight, as rectangles. -/
abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0

/-- The output block after the body: its one whole-block store of the product of the two loaded blocks. -/
def out2_2 (x0 : Vec F S5000x128 .f32) (x1 : Vec F S128x128 .f32) : Vec F S5000x128 .f32 :=
  View.canon [⟨r2_0, k2_pay1 (View.ld x0 r2_0) (View.ld x1 r2_1)⟩]

/-- The one store covers the block. -/
theorem cover2_2 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

set_option maxHeartbeats 4000000 in
/-- The body on whole staging buffers: the two inputs at `x0`, `x1` and the output at anything run to the inputs
    unchanged and the output at `out2_2 x0 x1` (the body also loads the output block before storing; the loaded
    value is not used). -/
theorem sound_kernel2 (c : Dev nD) (E : Set ℕ) (i : grid2.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of the pipeline on core `c`: the arrays as the region finds them; after the body at point `t` each
    input's buffer at its block and the output's at the product of the two input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.IReg3.lean ====
/-
  Region 3 of @main: the residual update x + max(agg + b, 0) on 5000-row blocks. Window 0 is the node-feature block of
  the grid point, window 1 the aggregated-message block, window 2 the whole bias [128], window 3 the output block.
  Here: each window's block at a point as a read of its array at the region's entry, the one store of the body as a
  function of the three loaded blocks, the body's triple on whole staging buffers, the proof data of the pipeline and
  its body obligation at every point.
-/
import proofs.«104043_j65094524338803_1_alg».proof.Proof.Gen.KernelIdeal.Launch
import proofs.«104043_j65094524338803_1_alg».proof.Proof.Gen.KernelIdeal.Skeleton
import proofs.«104043_j65094524338803_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole [5000, 128] block and the whole [128] bias, as rectangles. -/
abbrev r3_0 : Rect S5000x128 := Rect.unit (s := S5000x128) ![0, 0] S5000x128.size inb_S5000x128_S5000x128_0_0
abbrev r3_1 : Rect S128 := Rect.unit (s := S128) ![0] S128.size inb_S128_S128_0

/-- The output block after the body: its one whole-block store of the update of the three loaded blocks (the bias, the
    aggregated messages, the features, in the body's order of loading). -/
def out3_3 (x0 : Vec F S5000x128 .f32) (x1 : Vec F S5000x128 .f32) (x2 : Vec F S128 .f32) : Vec F S5000x128 .f32 :=
  View.canon [⟨r3_0, k3_pay1 (View.ld x2 r3_1) (View.ld x1 r3_0) (View.ld x0 r3_0)⟩]

/-- The one store covers the block. -/
theorem cover3_3 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

set_option maxHeartbeats 4000000 in
/-- The body on whole staging buffers: the three inputs at `x0`, `x1`, `x2` and the output at anything run to the
    inputs unchanged and the output at `out3_3 x0 x1 x2` (the body also loads the output block before storing; the
    loaded value is not used). -/
theorem sound_kernel3 (c : Dev nD) (E : Set ℕ) (i : grid3.Coords) (arg1 : Memref sig .tc .vmem S5000x128 .f32) (harg1 : arg1.IsWhole)
    (arg2 : Memref sig .tc .vmem S5000x128 .f32) (harg2 : arg2.IsWhole) (arg3 : Memref sig .tc .vmem S128 .f32) (harg3 : arg3.IsWhole)
    (arg4 : Memref sig .tc .vmem S5000x128 .f32) (harg4 : arg4.IsWhole)
    (x0 : Vec F S5000x128 .f32) (x1 : Vec F S5000x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__combine_kernel i arg1 harg1 arg2 harg2 arg3 harg3 arg4 harg4) K := by
  simp only [cc3__combine_kernel_eq_skeleton]; unfold cc3__combine_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of the pipeline on core `c`: the arrays as the region finds them; after the body at point `t` each
    input's buffer at its block and the output's at the update of the three input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.IRun.lean ====
/-
  The run of @main: three stretches of host operations, the projection kernel, a stretch (gather, scale, scatter-add), the
  update kernel, and the same again for the second layer, then the final reshape. Here: the contents of every unscoped
  buffer at each of the twelve boundaries between these items, as a fold from the launch memory (a host stretch applies
  its operations; a kernel region replaces its output array by what its write-backs leave); that no item changes an
  argument array; every pipeline's proof data at its region's entry contents; each region as a segment between two
  boundaries; and the run itself: every weakly fair execution of @main terminates, nothing faulting, and every unscoped
  buffer ends at the last boundary's contents. The frame claim follows.
-/
import proofs.«104043_j65094524338803_1_alg».proof.Proof.IReg0
import proofs.«104043_j65094524338803_1_alg».proof.Proof.IReg1
import proofs.«104043_j65094524338803_1_alg».proof.Proof.IReg2
import proofs.«104043_j65094524338803_1_alg».proof.Proof.IReg3
import proofs.«104043_j65094524338803_1_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev Bd0 : Dev nD → Valuation τ sig (Elt F) := fun c b => (s₀ m ρ).mem ((c : Dev nD), b)

/-- After `hostOps0`. -/
abbrev Bd1 : Dev nD → Valuation τ sig (Elt F) := fun c => StableHlo.after hostOps0 (Bd0 m ρ c)
abbrev Vw1 : (c : Dev nD) → (b : Ref sig .tc) → Buf (Elt F) ((c : Thread nD τ).loc b) := fun c b => Bd1 m ρ c b
/-- A buffer `hostOps0` does not write is as before it. -/
theorem Bd1_of (c : Dev nD) (r : Ref sig .tc) (h : r ∉ hostOps0_W) : Bd1 m ρ c r = Bd0 m ρ c r :=
  StableHlo.after_of_writes_sub hostOps0 _ hostOps0_writes h

/-- After `hostOps0_1`. -/
abbrev Bd2 : Dev nD → Valuation τ sig (Elt F) := fun c => StableHlo.after hostOps0_1 (Bd1 m ρ c)
abbrev Vw2 : (c : Dev nD) → (b : Ref sig .tc) → Buf (Elt F) ((c : Thread nD τ).loc b) := fun c b => Bd2 m ρ c b
/-- A buffer `hostOps0_1` does not write is as before it. -/
theorem Bd2_of (c : Dev nD) (r : Ref sig .tc) (h : r ∉ hostOps0_1_W) : Bd2 m ρ c r = Bd1 m ρ c r :=
  StableHlo.after_of_writes_sub hostOps0_1 _ hostOps0_1_writes h

/-- After `hostOps0_2`. -/
abbrev Bd3 : Dev nD → Valuation τ sig (Elt F) := fun c => StableHlo.after hostOps0_2 (Bd2 m ρ c)
abbrev Vw3 : (c : Dev nD) → (b : Ref sig .tc) → Buf (Elt F) ((c : Thread nD τ).loc b) := fun c b => Bd3 m ρ c b
/-- A buffer `hostOps0_2` does not write is as before it. -/
theorem Bd3_of (c : Dev nD) (r : Ref sig .tc) (h : r ∉ hostOps0_2_W) : Bd3 m ρ c r = Bd2 m ρ c r :=
  StableHlo.after_of_writes_sub hostOps0_2 _ hostOps0_2_writes h

/-- At region 0's exit: its arrays at what the pipeline leaves (the inputs as entered, the output's write-backs folded),
    every other buffer as entered. -/
def Bd4 (c : Dev nD) : Valuation τ sig (Elt F) :=
  Pipeline.withArrays spec0 c (Bd3 m ρ c) fun w => (dat0 (Vw3 m ρ) c).arrAt w cfg0.N
theorem Bd4_arr (c : Dev nD) (w : Fin cfg0.W) :
    Bd4 m ρ c (Proc.devRef .tc (Pipeline.arrRef spec0 w)) = (dat0 (Vw3 m ρ) c).arrAt w cfg0.N := by
  unfold Bd4; exact Pipeline.withArrays_arr spec0 launch0.win.arr_inj c _ _ w
theorem Bd4_of_ne (c : Dev nD) (b : Ref sig .tc) (hb : ∀ w, Pipeline.arrRef spec0 w ≠ b) :
    Bd4 m ρ c (Proc.devRef .tc b) = Bd3 m ρ c (Proc.devRef .tc b) := by
  unfold Bd4; exact Pipeline.withArrays_of_ne spec0 c _ _ b hb
/-- The same read at the TensorCore's references. -/
abbrev Vw4 : (c : Dev nD) → (b : Ref sig .tc) → Buf (Elt F) ((c : Thread nD τ).loc b) := fun c b => Bd4 m ρ c b
theorem hF0 (c : Dev nD) (w : Fin cfg0.W) : (dat0 (Vw3 m ρ) c).arrAt w cfg0.N = Vw4 m ρ c (Pipeline.arrRef spec0 w) :=
  (Bd4_arr m ρ c w).symm
theorem hrest0 (c : Dev nD) : ∀ b, b ∉ Finset.univ.image (Pipeline.arrRef spec0) → Vw4 m ρ c b = Vw3 m ρ c b :=
  fun b hb => Bd4_of_ne m ρ c b fun w e => hb (Finset.mem_image.mpr ⟨w, Finset.mem_univ _, e⟩)

/-- After `hostOps1`. -/
abbrev Bd5 : Dev nD → Valuation τ sig (Elt F) := fun c => StableHlo.after hostOps1 (Bd4 m ρ c)
abbrev Vw5 : (c : Dev nD) → (b : Ref sig .tc) → Buf (Elt F) ((c : Thread nD τ).loc b) := fun c b => Bd5 m ρ c b
/-- A buffer `hostOps1` does not write is as before it. -/
theorem Bd5_of (c : Dev nD) (r : Ref sig .tc) (h : r ∉ hostOps1_W) : Bd5 m ρ c r = Bd4 m ρ c r :=
  StableHlo.after_of_writes_sub hostOps1 _ hostOps1_writes h

/-- At region 1's exit: its arrays at what the pipeline leaves (the inputs as entered, the output's write-backs folded),
    every other buffer as entered. -/
def Bd6 (c : Dev nD) : Valuation τ sig (Elt F) :=
  Pipeline.withArrays spec1 c (Bd5 m ρ c) fun w => (dat1 (Vw5 m ρ) c).arrAt w cfg1.N
theorem Bd6_arr (c : Dev nD) (w : Fin cfg1.W) :
    Bd6 m ρ c (Proc.devRef .tc (Pipeline.arrRef spec1 w)) = (dat1 (Vw5 m ρ) c).arrAt w cfg1.N := by
  unfold Bd6; exact Pipeline.withArrays_arr spec1 launch1.win.arr_inj c _ _ w
theorem Bd6_of_ne (c : Dev nD) (b : Ref sig .tc) (hb : ∀ w, Pipeline.arrRef spec1 w ≠ b) :
    Bd6 m ρ c (Proc.devRef .tc b) = Bd5 m ρ c (Proc.devRef .tc b) := by
  unfold Bd6; exact Pipeline.withArrays_of_ne spec1 c _ _ b hb
/-- The same read at the TensorCore's references. -/
abbrev Vw6 : (c : Dev nD) → (b : Ref sig .tc) → Buf (Elt F) ((c : Thread nD τ).loc b) := fun c b => Bd6 m ρ c b
theorem hF1 (c : Dev nD) (w : Fin cfg1.W) : (dat1 (Vw5 m ρ) c).arrAt w cfg1.N = Vw6 m ρ c (Pipeline.arrRef spec1 w) :=
  (Bd6_arr m ρ c w).symm
theorem hrest1 (c : Dev nD) : ∀ b, b ∉ Finset.univ.image (Pipeline.arrRef spec1) → Vw6 m ρ c b = Vw5 m ρ c b :=
  fun b hb => Bd6_of_ne m ρ c b fun w e => hb (Finset.mem_image.mpr ⟨w, Finset.mem_univ _, e⟩)

/-- After `hostOps2`. -/
abbrev Bd7 : Dev nD → Valuation τ sig (Elt F) := fun c => StableHlo.after hostOps2 (Bd6 m ρ c)
abbrev Vw7 : (c : Dev nD) → (b : Ref sig .tc) → Buf (Elt F) ((c : Thread nD τ).loc b) := fun c b => Bd7 m ρ c b
/-- A buffer `hostOps2` does not write is as before it. -/
theorem Bd7_of (c : Dev nD) (r : Ref sig .tc) (h : r ∉ hostOps2_W) : Bd7 m ρ c r = Bd6 m ρ c r :=
  StableHlo.after_of_writes_sub hostOps2 _ hostOps2_writes h

/-- At region 2's exit: its arrays at what the pipeline leaves (the inputs as entered, the output's write-backs folded),
    every other buffer as entered. -/
def Bd8 (c : Dev nD) : Valuation τ sig (Elt F) :=
  Pipeline.withArrays spec2 c (Bd7 m ρ c) fun w => (dat2 (Vw7 m ρ) c).arrAt w cfg2.N
theorem Bd8_arr (c : Dev nD) (w : Fin cfg2.W) :
    Bd8 m ρ c (Proc.devRef .tc (Pipeline.arrRef spec2 w)) = (dat2 (Vw7 m ρ) c).arrAt w cfg2.N := by
  unfold Bd8; exact Pipeline.withArrays_arr spec2 launch2.win.arr_inj c _ _ w
theorem Bd8_of_ne (c : Dev nD) (b : Ref sig .tc) (hb : ∀ w, Pipeline.arrRef spec2 w ≠ b) :
    Bd8 m ρ c (Proc.devRef .tc b) = Bd7 m ρ c (Proc.devRef .tc b) := by
  unfold Bd8; exact Pipeline.withArrays_of_ne spec2 c _ _ b hb
/-- The same read at the TensorCore's references. -/
abbrev Vw8 : (c : Dev nD) → (b : Ref sig .tc) → Buf (Elt F) ((c : Thread nD τ).loc b) := fun c b => Bd8 m ρ c b
theorem hF2 (c : Dev nD) (w : Fin cfg2.W) : (dat2 (Vw7 m ρ) c).arrAt w cfg2.N = Vw8 m ρ c (Pipeline.arrRef spec2 w) :=
  (Bd8_arr m ρ c w).symm
theorem hrest2 (c : Dev nD) : ∀ b, b ∉ Finset.univ.image (Pipeline.arrRef spec2) → Vw8 m ρ c b = Vw7 m ρ c b :=
  fun b hb => Bd8_of_ne m ρ c b fun w e => hb (Finset.mem_image.mpr ⟨w, Finset.mem_univ _, e⟩)

/-- After `hostOps3`. -/
abbrev Bd9 : Dev nD → Valuation τ sig (Elt F) := fun c => StableHlo.after hostOps3 (Bd8 m ρ c)
abbrev Vw9 : (c : Dev nD) → (b : Ref sig .tc) → Buf (Elt F) ((c : Thread nD τ).loc b) := fun c b => Bd9 m ρ c b
/-- A buffer `hostOps3` does not write is as before it. -/
theorem Bd9_of (c : Dev nD) (r : Ref sig .tc) (h : r ∉ hostOps3_W) : Bd9 m ρ c r = Bd8 m ρ c r :=
  StableHlo.after_of_writes_sub hostOps3 _ hostOps3_writes h

/-- At region 3's exit: its arrays at what the pipeline leaves (the inputs as entered, the output's write-backs folded),
    every other buffer as entered. -/
def Bd10 (c : Dev nD) : Valuation τ sig (Elt F) :=
  Pipeline.withArrays spec3 c (Bd9 m ρ c) fun w => (dat3 (Vw9 m ρ) c).arrAt w cfg3.N
theorem Bd10_arr (c : Dev nD) (w : Fin cfg3.W) :
    Bd10 m ρ c (Proc.devRef .tc (Pipeline.arrRef spec3 w)) = (dat3 (Vw9 m ρ) c).arrAt w cfg3.N := by
  unfold Bd10; exact Pipeline.withArrays_arr spec3 launch3.win.arr_inj c _ _ w
theorem Bd10_of_ne (c : Dev nD) (b : Ref sig .tc) (hb : ∀ w, Pipeline.arrRef spec3 w ≠ b) :
    Bd10 m ρ c (Proc.devRef .tc b) = Bd9 m ρ c (Proc.devRef .tc b) := by
  unfold Bd10; exact Pipeline.withArrays_of_ne spec3 c _ _ b hb
/-- The same read at the TensorCore's references. -/
abbrev Vw10 : (c : Dev nD) → (b : Ref sig .tc) → Buf (Elt F) ((c : Thread nD τ).loc b) := fun c b => Bd10 m ρ c b
theorem hF3 (c : Dev nD) (w : Fin cfg3.W) : (dat3 (Vw9 m ρ) c).arrAt w cfg3.N = Vw10 m ρ c (Pipeline.arrRef spec3 w) :=
  (Bd10_arr m ρ c w).symm
theorem hrest3 (c : Dev nD) : ∀ b, b ∉ Finset.univ.image (Pipeline.arrRef spec3) → Vw10 m ρ c b = Vw9 m ρ c b :=
  fun b hb => Bd10_of_ne m ρ c b fun w e => hb (Finset.mem_image.mpr ⟨w, Finset.mem_univ _, e⟩)

/-- After `hostOps4`. -/
abbrev Bd11 : Dev nD → Valuation τ sig (Elt F) := fun c => StableHlo.after hostOps4 (Bd10 m ρ c)
abbrev Vw11 : (c : Dev nD) → (b : Ref sig .tc) → Buf (Elt F) ((c : Thread nD τ).loc b) := fun c b => Bd11 m ρ c b
/-- A buffer `hostOps4` does not write is as before it. -/
theorem Bd11_of (c : Dev nD) (r : Ref sig .tc) (h : r ∉ hostOps4_W) : Bd11 m ρ c r = Bd10 m ρ c r :=
  StableHlo.after_of_writes_sub hostOps4 _ hostOps4_writes h

/-! ## The arguments end as launched -/

/-- `main_arg0` ends as launched: no host operation writes it and it is no region's array. -/
theorem Bd11_main_arg0 (c : Dev nD) : Bd11 m ρ c (Proc.devRef .tc main_arg0) = m ((c : Thread nD τ).loc main_arg0) :=
  (Bd11_of m ρ c main_arg0 (by decide)).trans <| (Bd10_of_ne m ρ c main_arg0 (by decide)).trans <| (Bd9_of m ρ c main_arg0 (by decide)).trans <|
  (Bd8_of_ne m ρ c main_arg0 (by decide)).trans <| (Bd7_of m ρ c main_arg0 (by decide)).trans <| (Bd6_of_ne m ρ c main_arg0 (by decide)).trans <|
  (Bd5_of m ρ c main_arg0 (by decide)).trans <| (Bd4_of_ne m ρ c main_arg0 (by decide)).trans <| (Bd3_of m ρ c main_arg0 (by decide)).trans <|
  (Bd2_of m ρ c main_arg0 (by decide)).trans <| (Bd1_of m ρ c main_arg0 (by decide)).trans rfl

/-- `main_arg1` ends as launched: no host operation writes it and it is no region's array. -/
theorem Bd11_main_arg1 (c : Dev nD) : Bd11 m ρ c (Proc.devRef .tc main_arg1) = m ((c : Thread nD τ).loc main_arg1) :=
  (Bd11_of m ρ c main_arg1 (by decide)).trans <| (Bd10_of_ne m ρ c main_arg1 (by decide)).trans <| (Bd9_of m ρ c main_arg1 (by decide)).trans <|
  (Bd8_of_ne m ρ c main_arg1 (by decide)).trans <| (Bd7_of m ρ c main_arg1 (by decide)).trans <| (Bd6_of_ne m ρ c main_arg1 (by decide)).trans <|
  (Bd5_of m ρ c main_arg1 (by decide)).trans <| (Bd4_of_ne m ρ c main_arg1 (by decide)).trans <| (Bd3_of m ρ c main_arg1 (by decide)).trans <|
  (Bd2_of m ρ c main_arg1 (by decide)).trans <| (Bd1_of m ρ c main_arg1 (by decide)).trans rfl

/-- `main_arg2` ends as launched: no host operation writes it and it is no region's array. -/
theorem Bd11_main_arg2 (c : Dev nD) : Bd11 m ρ c (Proc.devRef .tc main_arg2) = m ((c : Thread nD τ).loc main_arg2) :=
  (Bd11_of m ρ c main_arg2 (by decide)).trans <| (Bd10_of_ne m ρ c main_arg2 (by decide)).trans <| (Bd9_of m ρ c main_arg2 (by decide)).trans <|
  (Bd8_of_ne m ρ c main_arg2 (by decide)).trans <| (Bd7_of m ρ c main_arg2 (by decide)).trans <| (Bd6_of_ne m ρ c main_arg2 (by decide)).trans <|
  (Bd5_of m ρ c main_arg2 (by decide)).trans <| (Bd4_of_ne m ρ c main_arg2 (by decide)).trans <| (Bd3_of m ρ c main_arg2 (by decide)).trans <|
  (Bd2_of m ρ c main_arg2 (by decide)).trans <| (Bd1_of m ρ c main_arg2 (by decide)).trans rfl

/-- `main_arg3` ends as launched: no host operation writes it and it is no region's array. -/
theorem Bd11_main_arg3 (c : Dev nD) : Bd11 m ρ c (Proc.devRef .tc main_arg3) = m ((c : Thread nD τ).loc main_arg3) :=
  (Bd11_of m ρ c main_arg3 (by decide)).trans <| (Bd10_of_ne m ρ c main_arg3 (by decide)).trans <| (Bd9_of m ρ c main_arg3 (by decide)).trans <|
  (Bd8_of_ne m ρ c main_arg3 (by decide)).trans <| (Bd7_of m ρ c main_arg3 (by decide)).trans <| (Bd6_of_ne m ρ c main_arg3 (by decide)).trans <|
  (Bd5_of m ρ c main_arg3 (by decide)).trans <| (Bd4_of_ne m ρ c main_arg3 (by decide)).trans <| (Bd3_of m ρ c main_arg3 (by decide)).trans <|
  (Bd2_of m ρ c main_arg3 (by decide)).trans <| (Bd1_of m ρ c main_arg3 (by decide)).trans rfl

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (Vw3 m ρ) c
  | ⟨1, _⟩ => fun c => dat1 (Vw5 m ρ) c
  | ⟨2, _⟩ => fun c => dat2 (Vw7 m ρ) c
  | ⟨3, _⟩ => fun c => dat3 (Vw9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (Bd11 m ρ c) ∗ ∃ r, prngReg c r)

/-! ## The regions as segments -/

set_option backward.isDefEq.respectTransparency.types false in
/-- Region 0 over the thread state: entered from every unscoped buffer at `Bd3`, left at `Bd4`. Its arrays are split
    out of the unscoped buffers and put back at the exit contents; the generator register goes into the class invariant and
    out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vw3 m ρ) c).loose
  hwaits := Pipeline.hwaits_of_owed_zero _ _ _ _ L lv 0 fun _ _ => rfl
  pre c := iprop(StableHlo.held (c : Thread nD τ) (Pipeline.ucRefs τ sig) (Bd3 m ρ c) ∗ R c)
  post c := iprop(StableHlo.held (c : Thread nD τ) (Pipeline.ucRefs τ sig) (Bd4 m ρ c) ∗ R c)
  X c := iprop(∃ r, prngReg c r)
  Y c := iprop(∃ r, prngReg c r)
  Z c := Pipeline.unscopedRest (Ix := Unit) (Name := ℕ) (U := UR sig nD τ) (Lvl := ℕ) spec0 c (Vw3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vw3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vw3 m ρ c) (Vw4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `Bd5`, left at `Bd6`. Its arrays are split
    out of the unscoped buffers and put back at the exit contents; the generator register goes into the class invariant and
    out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vw5 m ρ) c).loose
  hwaits := Pipeline.hwaits_of_owed_zero _ _ _ _ L lv 1 fun _ _ => rfl
  pre c := iprop(StableHlo.held (c : Thread nD τ) (Pipeline.ucRefs τ sig) (Bd5 m ρ c) ∗ R c)
  post c := iprop(StableHlo.held (c : Thread nD τ) (Pipeline.ucRefs τ sig) (Bd6 m ρ c) ∗ R c)
  X c := iprop(∃ r, prngReg c r)
  Y c := iprop(∃ r, prngReg c r)
  Z c := Pipeline.unscopedRest (Ix := Unit) (Name := ℕ) (U := UR sig nD τ) (Lvl := ℕ) spec1 c (Vw5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vw5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vw5 m ρ c) (Vw6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `Bd7`, left at `Bd8`. Its arrays are split
    out of the unscoped buffers and put back at the exit contents; the generator register goes into the class invariant and
    out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vw7 m ρ) c).loose
  hwaits := Pipeline.hwaits_of_owed_zero _ _ _ _ L lv 2 fun _ _ => rfl
  pre c := iprop(StableHlo.held (c : Thread nD τ) (Pipeline.ucRefs τ sig) (Bd7 m ρ c) ∗ R c)
  post c := iprop(StableHlo.held (c : Thread nD τ) (Pipeline.ucRefs τ sig) (Bd8 m ρ c) ∗ R c)
  X c := iprop(∃ r, prngReg c r)
  Y c := iprop(∃ r, prngReg c r)
  Z c := Pipeline.unscopedRest (Ix := Unit) (Name := ℕ) (U := UR sig nD τ) (Lvl := ℕ) spec2 c (Vw7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vw7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vw7 m ρ c) (Vw8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `Bd9`, left at `Bd10`. Its arrays are split
    out of the unscoped buffers and put back at the exit contents; the generator register goes into the class invariant and
    out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vw9 m ρ) c).loose
  hwaits := Pipeline.hwaits_of_owed_zero _ _ _ _ L lv 3 fun _ _ => rfl
  pre c := iprop(StableHlo.held (c : Thread nD τ) (Pipeline.ucRefs τ sig) (Bd9 m ρ c) ∗ R c)
  post c := iprop(StableHlo.held (c : Thread nD τ) (Pipeline.ucRefs τ sig) (Bd10 m ρ c) ∗ R c)
  X c := iprop(∃ r, prngReg c r)
  Y c := iprop(∃ r, prngReg c r)
  Z c := Pipeline.unscopedRest (Ix := Unit) (Name := ℕ) (U := UR sig nD τ) (Lvl := ℕ) spec3 c (Vw9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vw9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vw9 m ρ c) (Vw10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 11 segments in order. -/
abbrev segsAll : List (Pipeline.Seg (pcfgs (F := F)) adm (pdats m ρ) () defs₀ 𝒱₀ L lv) :=
  [ .host (hseg hostOps0 hostOps0_sub hostOps0_fresh (Bd0 m ρ)),
    .host (hseg hostOps0_1 hostOps0_1_sub hostOps0_1_fresh (Bd1 m ρ)),
    .host (hseg hostOps0_2 hostOps0_2_sub hostOps0_2_fresh (Bd2 m ρ)),
    .region (reg0 m ρ),
    .host (hseg hostOps1 hostOps1_sub hostOps1_fresh (Bd4 m ρ)),
    .region (reg1 m ρ),
    .host (hseg hostOps2 hostOps2_sub hostOps2_fresh (Bd6 m ρ)),
    .region (reg2 m ρ),
    .host (hseg hostOps3 hostOps3_sub hostOps3_fresh (Bd8 m ρ)),
    .region (reg3 m ρ),
    .host (hseg hostOps4 hostOps4_sub hostOps4_fresh (Bd10 m ρ)) ]

set_option backward.isDefEq.respectTransparency.types false in
/-- THE RUN: at the compiled mesh, from any memory with zero counters, every weakly fair execution of @main on the
    TensorCores terminates, nothing faulting, and every final state has every unscoped buffer at the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bd11 m ρ c b) :=
  Pipeline.θ_run_regions_kit (pcfgs (F := F)) adm (pdats m ρ) () cellOf_inj emb₁ defs₀ 𝒱₀ L lv m ρ main (segsAll m ρ)
    (fun c Q => by
      rewrite [main_chain c, Pipeline.Seg.run_eq_chain,
        show (segsAll m ρ).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (Bd11 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd11 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd11 m ρ c) s')
      isplitl [Hh] <;> iassumption)
    (hQ := fun s h => h)

/-- THE FRAME: every weakly fair execution of @main terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (Bd11_main_arg0 m ρ c),
     (h c _ (mem_uc main_arg1 (by decide))).trans (Bd11_main_arg1 m ρ c),
     (h c _ (mem_uc main_arg2 (by decide))).trans (Bd11_main_arg2 m ρ c),
     (h c _ (mem_uc main_arg3 (by decide))).trans (Bd11_main_arg3 m ρ c)⟩) (run_all m ρ)

end Cert.KernelIdeal.Fr

end
-- ==== Proof.Math.lean ====
/-
  The two dense stages of one graph-convolution layer, as functions of whole arrays over the extended reals.
  `LinF X W` is the matrix product of the [50000, 128] node features with a [128, 128] weight: entry (r, q) is the sum
  over k of X(r, k) · W(k, q). `CombF X A B` is the residual update: entry (r, q) is X(r, q) + max(A(r, q) + B(q), 0),
  the zero being the value of the f32 word 0.
-/
import Idealize.ShloMosaic.PureOps.Ideal
import Idealize.ShloMosaic.Lib.ValueIdx

noncomputable section

namespace Cert.Math

open Idealize.ShloMosaic Idealize.ShloMosaic.ValueIdx

/-- The node-feature shape [50000, 128]. -/
abbrev NN : Shape := ⟨2, ![50000, 128]⟩
/-- The weight shape [128, 128]. -/
abbrev DD : Shape := ⟨2, ![128, 128]⟩
/-- The bias shape [128]. -/
abbrev D1 : Shape := ⟨1, ![128]⟩

/-- Rows of `X` times `W`: entry (r, q) is `∑ k, X (r, k) * W (k, q)`. -/
def LinF (X : FVec Ideal NN .f32) (W : FVec Ideal DD .f32) : FVec Ideal NN .f32 :=
  fun i => ∑ k : Fin 128, X (ix2 (i 0) k) * W (ix2 k (i 1))

theorem LinF_apply (X : FVec Ideal NN .f32) (W : FVec Ideal DD .f32) (r : Fin 50000) (q : Fin 128) :
    LinF X W (ix2 r q) = ∑ k : Fin 128, X (ix2 r k) * W (ix2 k q) := rfl

/-- The residual update: entry (r, q) is `X (r, q) + max (A (r, q) + B q) 0`. -/
def CombF (X A : FVec Ideal NN .f32) (B : FVec Ideal D1 .f32) : FVec Ideal NN .f32 :=
  fun i => X i + max (A i + B (ix1 (i 1))) (Ideal.ofBits .f32 0x00000000#32)

theorem CombF_apply (X A : FVec Ideal NN .f32) (B : FVec Ideal D1 .f32) (r : Fin 50000) (q : Fin 128) :
    CombF X A B (ix2 r q) = X (ix2 r q) + max (A (ix2 r q) + B (ix1 q)) (Ideal.ofBits .f32 0x00000000#32) := rfl

end Cert.Math

end
-- ==== Proof.RefEq.lean ====
/-
  The reference's two dense stages read as the shared specification: its one `dot_general` of the [50000, 128]
  features with a [128, 128] weight is the matrix product `LinF`, and its add / broadcast / maximum / add chain is
  the residual update `CombF`. Both are proved entry by entry at the extended reals.
-/
import proofs.«104043_j65094524338803_1_alg».proof.Proof.Gen.ReferenceIdeal
import proofs.«104043_j65094524338803_1_alg».proof.Proof.Math
import Idealize.ShloMosaic.PureOps.Ideal.Laws
import Idealize.ShloMosaic.Lib.Pipeline.Value
import Idealize.ShloMosaic.Lib.ValueIdx

noncomputable section

namespace Cert.RefEq

open Cert.ReferenceIdeal Cert.ReferenceIdeal.Gen Idealize.ShloMosaic Idealize.ShloMosaic.TcCoe Idealize.SL.Sem Idealize.ShloMosaic.StableHlo
open Idealize.ShloMosaic.ValueIdx

/-- The left operand's index of output entry `i` and contraction index `c`: row from `i`. -/
theorem lhs0 (i : S50000x128.Idx) (c : dot_S50000x128_S128x128_S50000x128_1_0_0_1_n_n.contr.Idx) :
    (dot_S50000x128_S128x128_S50000x128_1_0_0_1_n_n.lhsIdx i c 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
/-- … and column the contraction coordinate. -/
theorem lhs1 (i : S50000x128.Idx) (c : dot_S50000x128_S128x128_S50000x128_1_0_0_1_n_n.contr.Idx) :
    (dot_S50000x128_S128x128_S50000x128_1_0_0_1_n_n.lhsIdx i c 1).val = (c ⟨0, by decide⟩).val :=
  dot_S50000x128_S128x128_S50000x128_1_0_0_1_n_n.lhsIdx_val_of_single rfl i c
/-- The right operand's index: row the contraction coordinate … -/
theorem rhs0 (i : S50000x128.Idx) (c : dot_S50000x128_S128x128_S50000x128_1_0_0_1_n_n.contr.Idx) :
    (dot_S50000x128_S128x128_S50000x128_1_0_0_1_n_n.rhsIdx i c 0).val = (c ⟨0, by decide⟩).val :=
  dot_S50000x128_S128x128_S50000x128_1_0_0_1_n_n.rhsIdx_val_of_single rfl i c
/-- … and column from `i`. -/
theorem rhs1 (i : S50000x128.Idx) (c : dot_S50000x128_S128x128_S50000x128_1_0_0_1_n_n.contr.Idx) :
    (dot_S50000x128_S128x128_S50000x128_1_0_0_1_n_n.rhsIdx i c 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The reference's `dot_general` contracts the features' second axis with the weight's first: entry (r, q) is
    the sum over k of X(r, k) · W(k, q). -/
theorem dot_eq (X : FVec Ideal S50000x128 .f32) (W : FVec Ideal S128x128 .f32) :
    Host.dotGeneral (F := Ideal) dot_S50000x128_S128x128_S50000x128_1_0_0_1_n_n none X W = Cert.Math.LinF X W := by
  funext i
  obtain ⟨r, q, rfl⟩ : ∃ (r : Fin 50000) (q : Fin 128), i = ix2 r q := ⟨i 0, i 1, eq_ix2 i⟩
  rw [Cert.Math.LinF_apply]
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r q) ((contrEquiv1 dot_S50000x128_S128x128_S50000x128_1_0_0_1_n_n 128 rfl rfl).symm k) = ix2 r k := funext fun a => Fin.ext (by
    match a with
    | ⟨0, _⟩ => exact lhs0 _ _
    | ⟨1, _⟩ => exact (lhs1 _ _).trans hk)
  have er : dot_S50000x128_S128x128_S50000x128_1_0_0_1_n_n.rhsIdx (ix2 r q) ((contrEquiv1 dot_S50000x128_S128x128_S50000x128_1_0_0_1_n_n 128 rfl rfl).symm k) = ix2 k q := funext fun a => Fin.ext (by
    match a with
    | ⟨0, _⟩ => exact (rhs0 _ _).trans hk
    | ⟨1, _⟩ => exact rhs1 _ _)
  rw [el, er]

/-- The reference's residual update: the bias is broadcast along the rows (through a [1, 128] array), the zero is
    a broadcast scalar, so entry (r, q) is X(r, q) + max(A(r, q) + B(q), 0). -/
theorem comb_eq (X A : FVec Ideal S50000x128 .f32) (B : FVec Ideal S128 .f32) :
    addf X (maximumf (addf A (broadcastInDim S50000x128 ![0, 1] bcast_S1x128_S50000x128_0_1 (broadcastInDim S1x128 ![1] bcast_S128_S1x128_1 B))) (broadcastInDim S50000x128 ![] bcast_S_S50000x128 (constant (F := Ideal) S_ .f32 0x00000000#32))) = Cert.Math.CombF X A B := by
  funext i
  obtain ⟨r, q, rfl⟩ : ∃ (r : Fin 50000) (q : Fin 128), i = ix2 r q := ⟨i 0, i 1, eq_ix2 i⟩
  rw [Cert.Math.CombF_apply, addf_apply, maximumf_apply, addf_apply]
  rw [broadcastInDim_apply _ bcast_S1x128_S50000x128_0_1 _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])]
  rw [broadcastInDim_apply _ bcast_S128_S1x128_1 B (ix2 (0 : Fin 1) q) (ix1 q) (fun a => match a with
    | ⟨0, _⟩ => by show q.val = if (128 : Nat) = 1 then 0 else q.val; rw [if_neg (by decide)])]
  rw [broadcastInDim_apply _ bcast_S_S50000x128 _ (ix2 r q) (fun a => a.elim0) (fun a => a.elim0), constant_apply]

end Cert.RefEq

end
-- ==== Proof.LibNary3.lean ====
/-
  A host operation of THREE operands read back.

  `StableHlo.nary ![x, a, b] y f` (a concatenation of three arrays) writes `f` of its operands' contents. Stated for a
  general family `xs` the operands appear as `fun k => F ↑(xs k)`, under a binder, where the family's `k`-th member is no
  literal reference, so the contents the earlier operations wrote there cannot be rewritten further. For a literal
  family of three this lemma states the result with each operand's contents at its own reference, and gives the one
  rewriting pass that reads a whole list of host operations back with it.
-/
import Idealize.ShloMosaic.Lib.StableHlo.Run

namespace Idealize.ShloMosaic.StableHlo

variable {τ : Topo} {sig : RefSig} {Val : EltTy → Type}
variable {x a b y : Ref sig .tc}

/-- The result of a three-operand operation, each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, with the result reference un-indexed, for `simp`. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The contents after two lists of operations run one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A list of host operations read back in one rewriting pass, three- and four-operand operations at their literal operands. -/
macro "after_results_simp3" : tactic =>
  `(tactic| (simp (disch := decide) only [after_cons, after_nil,
      nullary_result', unary_result', binary_result', ternary_result', quaternary_result', reshape_result', nary4_result', nary3_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.Spec.lean ====
/-
  The reference program's result as one term over the shared specification. The edge lists `Src`, `Dst` (row 0,
  respectively row 1, of the integer argument, followed by 0..7 and then by 0..49999, so every node also has an
  edge to itself) and the edge weights `Norm` depend on the integer argument only; `AggT h` gathers rows of `h`
  along `Src` (a negative index read as index + 50000), scales them by `Norm` and scatter-adds them along `Dst`
  into zeros; one layer is `CombF x (AggT (LinF x w)) b`, and the result is two layers on the reshaped features,
  reshaped back. `ref_out`: the program's composed result term is `Out` of its four arguments.
-/
import proofs.«104043_j65094524338803_1_alg».proof.Proof.RefEq
import proofs.«104043_j65094524338803_1_alg».proof.Proof.RefRun

noncomputable section

namespace Cert.Spec

open Cert.ReferenceIdeal Cert.ReferenceIdeal.Gen Idealize.ShloMosaic Idealize.ShloMosaic.TcCoe Idealize.SL.Sem Idealize.ShloMosaic.StableHlo

/-- The node features as a [50000, 128] array. -/
def X0 (a0 : FVec Ideal S8x6250x128 .f32) : FVec Ideal S50000x128 .f32 :=
  shapeCast _ a0 shapeCasts_S8x6250x128_S50000x128

/-- Source nodes: row 0 of the edge array, then 0..7, then 0..49999. -/
def Src (a1 : IVec S2x800000 32) : IVec S850008 32 :=
  concatenate S850008 0 [⟨S800000, (shapeCast _ (extractStridedSlice S1x800000 ![0, 0] a1 slices_S2x800000_S1x800000_0_0) shapeCasts_S1x800000_S800000)⟩, ⟨S8, (iotaInDim S8 32 0)⟩, ⟨S50000, (iotaInDim S50000 32 0)⟩] concatenates_S800000_S8_S50000_S850008_d0

/-- Destination nodes: row 1 of the edge array, then 0..7, then 0..49999. -/
def Dst (a1 : IVec S2x800000 32) : IVec S850008 32 :=
  concatenate S850008 0 [⟨S800000, (shapeCast _ (extractStridedSlice S1x800000 ![1, 0] a1 slices_S2x800000_S1x800000_1_0) shapeCasts_S1x800000_S800000)⟩, ⟨S8, (iotaInDim S8 32 0)⟩, ⟨S50000, (iotaInDim S50000 32 0)⟩] concatenates_S800000_S8_S50000_S850008_d0

/-- The edge weights: with deg(v) the number of list positions whose `Dst` is v (a scatter-add of ones along `Dst`)
    and dinv(v) = 1/sqrt(deg v) where deg v > 0, else 0, the weight of a position is dinv at its `Src` times dinv at
    its `Dst` (each index read with a negative value shifted by 50000). -/
def Norm (a1 : IVec S2x800000 32) : FVec Ideal S850008 .f32 :=
  mulf (Host.gather gather_S50000_S850008x1_S850008_n_0_n_n_0_1_1 (select (cmpf .ogt (Host.scatterAdd scatter_S50000_S850008x1_S850008_n_0_0_1 (broadcastInDim S50000 ![] bcast_S_S50000 (constant (F := Ideal) S_ .f32 0x00000000#32)) (broadcastInDim S850008x1 ![0] bcast_S850008_S850008x1_0 (Dst a1)) (broadcastInDim S850008 ![] bcast_S_S850008 (constant (F := Ideal) S_ .f32 0x3F800000#32))) (broadcastInDim S50000 ![] bcast_S_S50000 (constant (F := Ideal) S_ .f32 0x00000000#32))) (Host.rsqrt (Host.scatterAdd scatter_S50000_S850008x1_S850008_n_0_0_1 (broadcastInDim S50000 ![] bcast_S_S50000 (constant (F := Ideal) S_ .f32 0x00000000#32)) (broadcastInDim S850008x1 ![0] bcast_S850008_S850008x1_0 (Dst a1)) (broadcastInDim S850008 ![] bcast_S_S850008 (constant (F := Ideal) S_ .f32 0x3F800000#32)))) (broadcastInDim S50000 ![] bcast_S_S50000 (id (constant (F := Ideal) S_ .f32 0x00000000#32)))) (broadcastInDim S850008x1 ![0] bcast_S850008_S850008x1_0 (select (cmpi .slt (Src a1) (broadcastInDim S850008 ![] bcast_S_S850008 (constantI S_ 32 0#32))) (addi (Src a1) (broadcastInDim S850008 ![] bcast_S_S850008 (constantI S_ 32 50000#32))) (Src a1)))) (Host.gather gather_S50000_S850008x1_S850008_n_0_n_n_0_1_1 (select (cmpf .ogt (Host.scatterAdd scatter_S50000_S850008x1_S850008_n_0_0_1 (broadcastInDim S50000 ![] bcast_S_S50000 (constant (F := Ideal) S_ .f32 0x00000000#32)) (broadcastInDim S850008x1 ![0] bcast_S850008_S850008x1_0 (Dst a1)) (broadcastInDim S850008 ![] bcast_S_S850008 (constant (F := Ideal) S_ .f32 0x3F800000#32))) (broadcastInDim S50000 ![] bcast_S_S50000 (constant (F := Ideal) S_ .f32 0x00000000#32))) (Host.rsqrt (Host.scatterAdd scatter_S50000_S850008x1_S850008_n_0_0_1 (broadcastInDim S50000 ![] bcast_S_S50000 (constant (F := Ideal) S_ .f32 0x00000000#32)) (broadcastInDim S850008x1 ![0] bcast_S850008_S850008x1_0 (Dst a1)) (broadcastInDim S850008 ![] bcast_S_S850008 (constant (F := Ideal) S_ .f32 0x3F800000#32)))) (broadcastInDim S50000 ![] bcast_S_S50000 (id (constant (F := Ideal) S_ .f32 0x00000000#32)))) (broadcastInDim S850008x1 ![0] bcast_S850008_S850008x1_0 (select (cmpi .slt (Dst a1) (broadcastInDim S850008 ![] bcast_S_S850008 (constantI S_ 32 0#32))) (addi (Dst a1) (broadcastInDim S850008 ![] bcast_S_S850008 (constantI S_ 32 50000#32))) (Dst a1))))

/-- The first layer's weight matrix … -/
def Wl0 (a2 : FVec Ideal S2x128x128 .f32) : FVec Ideal S128x128 .f32 :=
  shapeCast _ (extractStridedSlice S1x128x128 ![0, 0, 0] a2 slices_S2x128x128_S1x128x128_0_0_0) shapeCasts_S1x128x128_S128x128
/-- … and the second layer's. -/
def Wl1 (a2 : FVec Ideal S2x128x128 .f32) : FVec Ideal S128x128 .f32 :=
  shapeCast _ (extractStridedSlice S1x128x128 ![1, 0, 0] a2 slices_S2x128x128_S1x128x128_1_0_0) shapeCasts_S1x128x128_S128x128
/-- The first layer's bias … -/
def Bl0 (a3 : FVec Ideal S2x128 .f32) : FVec Ideal S128 .f32 :=
  shapeCast _ (extractStridedSlice S1x128 ![0, 0] a3 slices_S2x128_S1x128_0_0) shapeCasts_S1x128_S128
/-- … and the second layer's. -/
def Bl1 (a3 : FVec Ideal S2x128 .f32) : FVec Ideal S128 .f32 :=
  shapeCast _ (extractStridedSlice S1x128 ![1, 0] a3 slices_S2x128_S1x128_1_0) shapeCasts_S1x128_S128

/-- Neighbourhood aggregation: rows of `h` gathered along `Src`, scaled by `Norm`, scatter-added along `Dst` into zeros. -/
def AggT (h : FVec Ideal S50000x128 .f32) (a1 : IVec S2x800000 32) : FVec Ideal S50000x128 .f32 :=
  Host.scatterAdd scatter_S50000x128_S850008x1_S850008x128_1_0_0_1 (broadcastInDim S50000x128 ![] bcast_S_S50000x128 (constant (F := Ideal) S_ .f32 0x00000000#32)) (broadcastInDim S850008x1 ![0] bcast_S850008_S850008x1_0 (Dst a1)) (mulf (Host.gather gather_S50000x128_S850008x1_S850008x128_1_0_n_n_0_1_1128 h (broadcastInDim S850008x1 ![0] bcast_S850008_S850008x1_0 (select (cmpi .slt (Src a1) (broadcastInDim S850008 ![] bcast_S_S850008 (constantI S_ 32 0#32))) (addi (Src a1) (broadcastInDim S850008 ![] bcast_S_S850008 (constantI S_ 32 50000#32))) (Src a1)))) (broadcastInDim S850008x128 ![0, 1] bcast_S850008x1_S850008x128_0_1 (broadcastInDim S850008x1 ![0] bcast_S850008_S850008x1_0 (Norm a1))))

/-- One layer: x + max(Agg(x · w) + b, 0). -/
def Layer (x : FVec Ideal S50000x128 .f32) (w : FVec Ideal S128x128 .f32) (b : FVec Ideal S128 .f32) (a1 : IVec S2x800000 32) :
    FVec Ideal S50000x128 .f32 :=
  Cert.Math.CombF x (AggT (Cert.Math.LinF x w) a1) b

/-- The reference's result: two layers, reshaped back to [8, 6250, 128]. -/
def Out (a0 : FVec Ideal S8x6250x128 .f32) (a1 : IVec S2x800000 32) (a2 : FVec Ideal S2x128x128 .f32) (a3 : FVec Ideal S2x128 .f32) :
    FVec Ideal S8x6250x128 .f32 :=
  shapeCast _ (Layer (Layer (X0 a0) (Wl0 a2) (Bl0 a3) a1) (Wl1 a2) (Bl1 a3) a1) shapeCasts_S50000x128_S8x6250x128

set_option maxRecDepth 8192 in
/-- The reference's composed result term is `Out` of the four arguments: the two `dot_general`s are `LinF` and the
    two add / broadcast / maximum / add chains are `CombF` (`RefEq`); everything else is the same term on both sides. -/
theorem ref_out (m : (ℓ : Loc nD τ sig) → Buf (Elt Ideal) ℓ) (c : Dev nD) :
    Cert.ReferenceIdeal.ValueP.res_main_v78 (F := Ideal) m c = Out (m ((c.tc : Thread nD τ).loc main_arg0)) (m ((c.tc : Thread nD τ).loc main_arg1)) (m ((c.tc : Thread nD τ).loc main_arg2)) (m ((c.tc : Thread nD τ).loc main_arg3)) := by
  unfold Cert.ReferenceIdeal.ValueP.res_main_v78 Cert.Spec.Out Cert.Spec.Layer
  rw [← Cert.RefEq.comb_eq, ← Cert.RefEq.comb_eq, ← Cert.RefEq.dot_eq, ← Cert.RefEq.dot_eq]
  unfold Cert.Spec.AggT Cert.Spec.Norm Cert.Spec.Src Cert.Spec.Dst Cert.Spec.X0 Cert.Spec.Wl0 Cert.Spec.Wl1 Cert.Spec.Bl0 Cert.Spec.Bl1
  rfl

end Cert.Spec

end
-- ==== Proof.IValA.lean ====
/-
  The idealized kernel program before its first kernel. At the ideal instance the buffers the first three host stretches
  write are read back as functions of the argument arrays: the features reshaped to [50000, 128], the two edge lists with
  their self loops appended, the symmetric degree normalization of the edges, the first weight. The normalization is read
  back in three steps, one per stretch: after the first, the two edge lists, the degree comparison and the reciprocal
  root degree; after the second (a called selection), the reciprocal root degree where the degree is positive, else
  zero; after the third, the product of its values at an edge's two ends. Also: the argument arrays at the later
  boundaries where a stretch slices them, and that a buffer no item writes between two boundaries keeps its contents.
-/
import proofs.«104043_j65094524338803_1_alg».proof.Proof.IRun
import proofs.«104043_j65094524338803_1_alg».proof.Proof.Spec
import proofs.«104043_j65094524338803_1_alg».proof.Proof.LibNary3

set_option maxRecDepth 16384

noncomputable section

namespace Cert.KernelIdeal.Fr

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg) (c : Dev nD)

/-! ## The arguments at the boundaries where a stretch reads them -/

theorem arg3_at4 : Bd4 m ρ c (Proc.devRef .tc main_arg3) = m ((c : Thread nD τ).loc main_arg3) :=
  (Bd4_of_ne m ρ c main_arg3 (by decide)).trans <| (Bd3_of m ρ c main_arg3 (by decide)).trans <|
  (Bd2_of m ρ c main_arg3 (by decide)).trans <| (Bd1_of m ρ c main_arg3 (by decide)).trans rfl
theorem arg2_at6 : Bd6 m ρ c (Proc.devRef .tc main_arg2) = m ((c : Thread nD τ).loc main_arg2) :=
  (Bd6_of_ne m ρ c main_arg2 (by decide)).trans <| (Bd5_of m ρ c main_arg2 (by decide)).trans <|
  (Bd4_of_ne m ρ c main_arg2 (by decide)).trans <| (Bd3_of m ρ c main_arg2 (by decide)).trans <|
  (Bd2_of m ρ c main_arg2 (by decide)).trans <| (Bd1_of m ρ c main_arg2 (by decide)).trans rfl
theorem arg3_at8 : Bd8 m ρ c (Proc.devRef .tc main_arg3) = m ((c : Thread nD τ).loc main_arg3) :=
  (Bd8_of_ne m ρ c main_arg3 (by decide)).trans <| (Bd7_of m ρ c main_arg3 (by decide)).trans <|
  (Bd6_of_ne m ρ c main_arg3 (by decide)).trans <| (Bd5_of m ρ c main_arg3 (by decide)).trans <| arg3_at4 m ρ c

/-! ## A buffer no item writes between two boundaries keeps its contents -/

theorem back4 (r : Ref sig .tc) (h0 : ∀ w, Pipeline.arrRef spec0 w ≠ r) : Bd4 m ρ c (Proc.devRef .tc r) = Bd3 m ρ c (Proc.devRef .tc r) :=
  Bd4_of_ne m ρ c r h0
theorem back5 (r : Ref sig .tc) (h0 : ∀ w, Pipeline.arrRef spec0 w ≠ r) (h1 : r ∉ hostOps1_W) :
    Bd5 m ρ c (Proc.devRef .tc r) = Bd3 m ρ c (Proc.devRef .tc r) :=
  (Bd5_of m ρ c r h1).trans (back4 m ρ c r h0)
theorem back6 (r : Ref sig .tc) (h0 : ∀ w, Pipeline.arrRef spec0 w ≠ r) (h1 : r ∉ hostOps1_W) (h2 : ∀ w, Pipeline.arrRef spec1 w ≠ r) :
    Bd6 m ρ c (Proc.devRef .tc r) = Bd3 m ρ c (Proc.devRef .tc r) :=
  (Bd6_of_ne m ρ c r h2).trans (back5 m ρ c r h0 h1)
theorem back7 (r : Ref sig .tc) (h0 : ∀ w, Pipeline.arrRef spec0 w ≠ r) (h1 : r ∉ hostOps1_W) (h2 : ∀ w, Pipeline.arrRef spec1 w ≠ r)
    (h3 : r ∉ hostOps2_W) : Bd7 m ρ c (Proc.devRef .tc r) = Bd3 m ρ c (Proc.devRef .tc r) :=
  (Bd7_of m ρ c r h3).trans (back6 m ρ c r h0 h1 h2)
theorem back8 (r : Ref sig .tc) (h0 : ∀ w, Pipeline.arrRef spec0 w ≠ r) (h1 : r ∉ hostOps1_W) (h2 : ∀ w, Pipeline.arrRef spec1 w ≠ r)
    (h3 : r ∉ hostOps2_W) (h4 : ∀ w, Pipeline.arrRef spec2 w ≠ r) : Bd8 m ρ c (Proc.devRef .tc r) = Bd3 m ρ c (Proc.devRef .tc r) :=
  (Bd8_of_ne m ρ c r h4).trans (back7 m ρ c r h0 h1 h2 h3)

/-! ## Before the first kernel: the reshaped features, the edge lists with their self loops, the normalization, the
    first weight -/

/-! ## The two concatenations read back at their literal operands -/

/-- The source list's concatenation writes the concatenation of its three operands' contents. -/
theorem concat_v5 (hxs hy) (V : Valuation τ sig (Elt Ideal)) :
    (StableHlo.nary (τ := τ) (Val := Elt Ideal) ![main_v4, main_v1, main_v2] main_v5 (fun u => concatenate S850008 0 [⟨S800000, u 0⟩, ⟨S8, u 1⟩, ⟨S50000, u 2⟩] concatenates_S800000_S8_S50000_S850008_d0) hxs hy).result V (no_index (Proc.devRef .tc main_v5))
      = concatenate S850008 0 [⟨S800000, V (Proc.devRef .tc main_v4)⟩, ⟨S8, V (Proc.devRef .tc main_v1)⟩, ⟨S50000, V (Proc.devRef .tc main_v2)⟩] concatenates_S800000_S8_S50000_S850008_d0 :=
  StableHlo.nary3_result _ hxs hy V
/-- So does the destination list's. -/
theorem concat_v8 (hxs hy) (V : Valuation τ sig (Elt Ideal)) :
    (StableHlo.nary (τ := τ) (Val := Elt Ideal) ![main_v7, main_v1, main_v2] main_v8 (fun u => concatenate S850008 0 [⟨S800000, u 0⟩, ⟨S8, u 1⟩, ⟨S50000, u 2⟩] concatenates_S800000_S8_S50000_S850008_d0) hxs hy).result V (no_index (Proc.devRef .tc main_v8))
      = concatenate S850008 0 [⟨S800000, V (Proc.devRef .tc main_v7)⟩, ⟨S8, V (Proc.devRef .tc main_v1)⟩, ⟨S50000, V (Proc.devRef .tc main_v2)⟩] concatenates_S800000_S8_S50000_S850008_d0 :=
  StableHlo.nary3_result _ hxs hy V

/-- A list of host operations read back in one rewriting pass, the two concatenations by the lemmas above. -/
macro "after_results_simpA" : tactic =>
  `(tactic| (simp (disch := decide) only [StableHlo.after_cons, StableHlo.after_nil,
      StableHlo.nullary_result', StableHlo.unary_result', StableHlo.binary_result', StableHlo.ternary_result', StableHlo.quaternary_result', StableHlo.reshape_result', concat_v5, concat_v8,
      StableHlo.nullary_result_ne', StableHlo.unary_result_ne', StableHlo.binary_result_ne', StableHlo.ternary_result_ne', StableHlo.quaternary_result_ne', StableHlo.reshape_result_ne',
      StableHlo.nary_result_ne']))

/-! ### The normalization with this program's own records -/

/-- The in-degree: ones scatter-added along the destination list `d`. -/
def kDeg (d : IVec S850008 32) : FVec Ideal S50000 .f32 :=
  Host.scatterAdd scatter_S50000_S850008x1_S850008_n_0_0_1 (broadcastInDim S50000 ![] bcast_S_S50000 (constant (F := Ideal) S_ .f32 0x00000000#32)) (broadcastInDim S850008x1 ![0] bcast_S850008_S850008x1_0 d) (broadcastInDim S850008 ![] bcast_S_S850008 (constant (F := Ideal) S_ .f32 0x3F800000#32))

/-- Its reciprocal square root where positive, else zero. -/
def kDinv (d : IVec S850008 32) : FVec Ideal S50000 .f32 :=
  select (cmpf .ogt (kDeg d) (broadcastInDim S50000 ![] bcast_S_S50000 (constant (F := Ideal) S_ .f32 0x00000000#32))) (Host.rsqrt (kDeg d)) (broadcastInDim S50000 ![] bcast_S_S50000 (id (constant (F := Ideal) S_ .f32 0x00000000#32)))

/-- The edge weights over source and destination lists `s`, `d`: the reciprocal root degrees gathered at the two ends
    (a negative index shifted by 50000), multiplied. -/
def kNorm (s d : IVec S850008 32) : FVec Ideal S850008 .f32 :=
  mulf (Host.gather gather_S50000_S850008x1_S850008_n_0_n_n_0_1_1 (kDinv d) (broadcastInDim S850008x1 ![0] bcast_S850008_S850008x1_0 (select (cmpi .slt s (broadcastInDim S850008 ![] bcast_S_S850008 (constantI S_ 32 0#32))) (addi s (broadcastInDim S850008 ![] bcast_S_S850008 (constantI S_ 32 50000#32))) s)))
    (Host.gather gather_S50000_S850008x1_S850008_n_0_n_n_0_1_1 (kDinv d) (broadcastInDim S850008x1 ![0] bcast_S850008_S850008x1_0 (select (cmpi .slt d (broadcastInDim S850008 ![] bcast_S_S850008 (constantI S_ 32 0#32))) (addi d (broadcastInDim S850008 ![] bcast_S_S850008 (constantI S_ 32 50000#32))) d)))

/-- This program's records and the reference's have equal fields, so these weights are the reference's `Norm`. -/
theorem kNorm_eq (a1 : IVec S2x800000 32) : kNorm (Cert.Spec.Src a1) (Cert.Spec.Dst a1) = Cert.Spec.Norm a1 := by
  unfold Cert.Spec.Norm kNorm kDinv kDeg
  generalize Cert.Spec.Src a1 = s
  generalize Cert.Spec.Dst a1 = d
  rfl

/-! ### After the first host stretch -/

theorem k1_v5 : (Bd1 m ρ c (Proc.devRef .tc main_v5) : IVec S850008 32) = Cert.Spec.Src (m ((c : Thread nD τ).loc main_arg1)) := by
  show StableHlo.after hostOps0 (Bd0 m ρ c) (Proc.devRef .tc main_v5) = _
  dsimp only [hostOps0]
  after_results_simpA
  rfl

theorem k1_v8 : (Bd1 m ρ c (Proc.devRef .tc main_v8) : IVec S850008 32) = Cert.Spec.Dst (m ((c : Thread nD τ).loc main_arg1)) := by
  show StableHlo.after hostOps0 (Bd0 m ρ c) (Proc.devRef .tc main_v8) = _
  dsimp only [hostOps0]
  after_results_simpA
  rfl

/-- The in-degree comparison: deg > 0. -/
theorem k1_v14 : (Bd1 m ρ c (Proc.devRef .tc main_v14) : IVec S50000 1)
    = cmpf .ogt (kDeg (Cert.Spec.Dst (m ((c : Thread nD τ).loc main_arg1)))) (broadcastInDim S50000 ![] bcast_S_S50000 (constant (F := Ideal) S_ .f32 0x00000000#32)) := by
  unfold kDeg
  show StableHlo.after hostOps0 (Bd0 m ρ c) (Proc.devRef .tc main_v14) = _
  dsimp only [hostOps0]
  after_results_simpA
  rfl

/-- The reciprocal square root of the in-degree. -/
theorem k1_v15 : (Bd1 m ρ c (Proc.devRef .tc main_v15) : FVec Ideal S50000 .f32) = Host.rsqrt (kDeg (Cert.Spec.Dst (m ((c : Thread nD τ).loc main_arg1)))) := by
  unfold kDeg
  show StableHlo.after hostOps0 (Bd0 m ρ c) (Proc.devRef .tc main_v15) = _
  dsimp only [hostOps0]
  after_results_simpA
  rfl

theorem k1_cst2 : (Bd1 m ρ c (Proc.devRef .tc main_cst_2) : FVec Ideal S_ .f32) = constant (F := Ideal) S_ .f32 0x00000000#32 := by
  show StableHlo.after hostOps0 (Bd0 m ρ c) (Proc.devRef .tc main_cst_2) = _
  dsimp only [hostOps0]
  after_results_simpA

/-! ### After the second (the called selection): the reciprocal root degree -/

theorem k2_v16 : (Bd2 m ρ c (Proc.devRef .tc main_v16) : FVec Ideal S50000 .f32) = kDinv (Cert.Spec.Dst (m ((c : Thread nD τ).loc main_arg1))) := by
  have h14 := k1_v14 m ρ c
  have h15 := k1_v15 m ρ c
  have hc := k1_cst2 m ρ c
  show StableHlo.after hostOps0_1 (Bd1 m ρ c) (Proc.devRef .tc main_v16) = _
  generalize Bd1 m ρ c = V1 at h14 h15 hc ⊢
  dsimp only [hostOps0_1]
  after_results_simpA
  show select (V1 (Proc.devRef .tc main_v14) : IVec S50000 1) (V1 (Proc.devRef .tc main_v15) : FVec Ideal S50000 .f32)
    (broadcastInDim S50000 ![] bcast_S_S50000 (id (V1 (Proc.devRef .tc main_cst_2) : FVec Ideal S_ .f32))) = _
  rw [h14, h15, hc]
  rfl

/-! ### After the third -/

theorem k_v0 : (Bd3 m ρ c (Proc.devRef .tc main_v0) : FVec Ideal S50000x128 .f32) = Cert.Spec.X0 (m ((c : Thread nD τ).loc main_arg0)) := by
  show StableHlo.after hostOps0_2 (StableHlo.after hostOps0_1 (StableHlo.after hostOps0 (Bd0 m ρ c))) (Proc.devRef .tc main_v0) = _
  dsimp only [hostOps0, hostOps0_1, hostOps0_2]
  after_results_simpA
  rfl

theorem k_v5 : (Bd3 m ρ c (Proc.devRef .tc main_v5) : IVec S850008 32) = Cert.Spec.Src (m ((c : Thread nD τ).loc main_arg1)) :=
  (Bd3_of m ρ c main_v5 (by decide)).trans <| (Bd2_of m ρ c main_v5 (by decide)).trans (k1_v5 m ρ c)

theorem k_v8 : (Bd3 m ρ c (Proc.devRef .tc main_v8) : IVec S850008 32) = Cert.Spec.Dst (m ((c : Thread nD τ).loc main_arg1)) :=
  (Bd3_of m ρ c main_v8 (by decide)).trans <| (Bd2_of m ρ c main_v8 (by decide)).trans (k1_v8 m ρ c)

theorem k_v31 : (Bd3 m ρ c (Proc.devRef .tc main_v31) : FVec Ideal S850008 .f32) = Cert.Spec.Norm (m ((c : Thread nD τ).loc main_arg1)) := by
  have h5 : (Bd2 m ρ c (Proc.devRef .tc main_v5) : IVec S850008 32) = _ := (Bd2_of m ρ c main_v5 (by decide)).trans (k1_v5 m ρ c)
  have h8 : (Bd2 m ρ c (Proc.devRef .tc main_v8) : IVec S850008 32) = _ := (Bd2_of m ρ c main_v8 (by decide)).trans (k1_v8 m ρ c)
  have h16 := k2_v16 m ρ c
  show StableHlo.after hostOps0_2 (Bd2 m ρ c) (Proc.devRef .tc main_v31) = _
  generalize Bd2 m ρ c = V2 at h5 h8 h16 ⊢
  dsimp only [hostOps0_2]
  after_results_simpA
  rw [h5, h8, h16]
  exact kNorm_eq _

theorem k_v33 : (Bd3 m ρ c (Proc.devRef .tc main_v33) : FVec Ideal S128x128 .f32) = Cert.Spec.Wl0 (m ((c : Thread nD τ).loc main_arg2)) := by
  show StableHlo.after hostOps0_2 (StableHlo.after hostOps0_1 (StableHlo.after hostOps0 (Bd0 m ρ c))) (Proc.devRef .tc main_v33) = _
  dsimp only [hostOps0, hostOps0_1, hostOps0_2]
  after_results_simpA
  rfl

end Cert.KernelIdeal.Fr

end
-- ==== Proof.KPay.lean ====
/-
  The arithmetic of the four kernel bodies, read at one index of a block.
  A linear body multiplies a [5000, 128] block of rows by the whole [128, 128] weight: entry (p, q) of what it stores is
  the sum over k of x(p, k) · w(k, q) (the rounding to the narrower format is the identity over the extended reals, and
  the accumulator starts at zero). A combine body stores x(p, q) + max(agg(p, q) + b(q), 0): the bias vector is viewed as
  one row and that row is repeated over the 5000 rows of the block.
-/
import proofs.«104043_j65094524338803_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KPay

open Cert.KernelIdeal Cert.KernelIdeal.Gen Idealize.ShloMosaic Idealize.ShloMosaic.ValueIdx

/-- The dimension numbers of the block product: the left operand's axis 1 is contracted with the right operand's axis 0. -/
abbrev DN : DotDims S5000x128 S128x128 S5000x128 := dot_S5000x128_S128x128_S5000x128_1_0_0_1_n_n

/-- The left operand's row coordinate is the output's row. -/
theorem lhs_row (i : S5000x128.Idx) (c : DN.contr.Idx) : (DN.lhsIdx i c 0).val = (i 0).val := by
  unfold DotDims.lhsIdx
  rw [dif_neg (show ¬(0 : Fin S5000x128.rank) ∈ DN.lhsBatch by decide), dif_pos (show (0 : Fin S5000x128.rank) ∈ DN.lhsNonContracting by decide)]
  rfl

/-- The left operand's column coordinate is the contraction coordinate. -/
theorem lhs_col (i : S5000x128.Idx) (c : DN.contr.Idx) : (DN.lhsIdx i c 1).val = (c ⟨0, by decide⟩).val :=
  DN.lhsIdx_val_of_single rfl i c

/-- The right operand's row coordinate is the contraction coordinate. -/
theorem rhs_row (i : S5000x128.Idx) (c : DN.contr.Idx) : (DN.rhsIdx i c 0).val = (c ⟨0, by decide⟩).val :=
  DN.rhsIdx_val_of_single rfl i c

/-- The right operand's column coordinate is the output's column. -/
theorem rhs_col (i : S5000x128.Idx) (c : DN.contr.Idx) : (DN.rhsIdx i c 1).val = (i 1).val := by
  unfold DotDims.rhsIdx
  rw [dif_neg (show ¬(1 : Fin S128x128.rank) ∈ DN.rhsBatch by decide), dif_pos (show (1 : Fin S128x128.rank) ∈ DN.rhsNonContracting by decide)]
  rfl

/-- The block product into a zero accumulator, at entry (p, q): the sum over k of a(p, k) · b(k, q). -/
theorem matmul_zero_ix2 {φ₁ φ₂ : FTy} (a : FVec Ideal S5000x128 φ₁) (b : FVec Ideal S128x128 φ₂) (p : Fin 5000) (q : Fin 128) :
    FloatOps.matmul DN none a b (constant (F := Ideal) S5000x128 .f32 0x00000000#32) (ix2 p q)
      = ∑ k : Fin 128, a (ix2 p k) * b (ix2 k q) := by
  rw [Ideal.matmul_constant_zero_apply, ← Equiv.sum_comp (contrEquiv1 DN 128 rfl rfl).symm]
  refine Finset.sum_congr rfl fun k _ => ?_
  have hk := contrEquiv1_symm_val DN 128 rfl rfl k
  have el : DN.lhsIdx (ix2 p q) ((contrEquiv1 DN 128 rfl rfl).symm k) = ix2 p k := funext fun ax => Fin.ext (by
    match ax with
    | ⟨0, _⟩ => exact lhs_row _ _
    | ⟨1, _⟩ => exact (lhs_col _ _).trans hk)
  have er : DN.rhsIdx (ix2 p q) ((contrEquiv1 DN 128 rfl rfl).symm k) = ix2 k q := funext fun ax => Fin.ext (by
    match ax with
    | ⟨0, _⟩ => exact (rhs_row _ _).trans hk
    | ⟨1, _⟩ => exact rhs_col _ _)
  rw [el, er]

/-- First linear body: entry (p, q) of the stored block is the sum over k of x(p, k) · w(k, q). -/
theorem lin_pay0 (x : Vec Ideal S5000x128 .f32) (w : Vec Ideal S128x128 .f32) (p : Fin 5000) (q : Fin 128) :
    k0_pay1 (F := Ideal) x w (ix2 p q) = ∑ k : Fin 128, x (ix2 p k) * w (ix2 k q) := by
  unfold k0_pay1
  refine (matmul_zero_ix2 _ _ p q).trans ?_
  refine Finset.sum_congr rfl fun k _ => ?_
  rw [shapeCast_self, shapeCast_self]
  rfl

/-- Second linear body: the same sum. -/
theorem lin_pay2 (x : Vec Ideal S5000x128 .f32) (w : Vec Ideal S128x128 .f32) (p : Fin 5000) (q : Fin 128) :
    k2_pay1 (F := Ideal) x w (ix2 p q) = ∑ k : Fin 128, x (ix2 p k) * w (ix2 k q) := by
  unfold k2_pay1
  refine (matmul_zero_ix2 _ _ p q).trans ?_
  refine Finset.sum_congr rfl fun k _ => ?_
  rw [shapeCast_self, shapeCast_self]
  rfl

/-- The bias vector viewed as one row and repeated over the block's rows reads b(q) at (p, q). -/
theorem bias_rows (b : Vec Ideal S128 .f32) (p : Fin 5000) (q : Fin 128) :
    broadcastTo S5000x128 (shapeCast S1x128 (shapeCast S128 b shapeCasts_S128_S128) shapeCasts_S128_S1x128) broadcasts_S1x128_S5000x128 (ix2 p q)
      = b (ix1 q) := by
  rw [shapeCast_self]
  refine (broadcastTo_1b_ab_apply _ broadcasts_S1x128_S5000x128 p q).trans ?_
  exact shapeCast_a_1a_apply b shapeCasts_S128_S1x128 (0 : Fin 1) q

/-- First combine body: entry (p, q) of the stored block is x(p, q) + max(agg(p, q) + b(q), 0). -/
theorem comb_pay1 (b : Vec Ideal S128 .f32) (agg x : Vec Ideal S5000x128 .f32) (p : Fin 5000) (q : Fin 128) :
    k1_pay1 (F := Ideal) b agg x (ix2 p q) = x (ix2 p q) + max (agg (ix2 p q) + b (ix1 q)) (Ideal.ofBits .f32 0x00000000#32) := by
  unfold k1_pay1
  show shapeCast S5000x128 x shapeCasts_S5000x128_S5000x128 (ix2 p q)
      + max (shapeCast S5000x128 agg shapeCasts_S5000x128_S5000x128 (ix2 p q)
          + broadcastTo S5000x128 (shapeCast S1x128 (shapeCast S128 b shapeCasts_S128_S128) shapeCasts_S128_S1x128) broadcasts_S1x128_S5000x128 (ix2 p q))
        (Ideal.ofBits .f32 0x00000000#32) = _
  rw [bias_rows, shapeCast_self, shapeCast_self]

/-- Second combine body: the same entry. -/
theorem comb_pay3 (b : Vec Ideal S128 .f32) (agg x : Vec Ideal S5000x128 .f32) (p : Fin 5000) (q : Fin 128) :
    k3_pay1 (F := Ideal) b agg x (ix2 p q) = x (ix2 p q) + max (agg (ix2 p q) + b (ix1 q)) (Ideal.ofBits .f32 0x00000000#32) := by
  unfold k3_pay1
  show shapeCast S5000x128 x shapeCasts_S5000x128_S5000x128 (ix2 p q)
      + max (shapeCast S5000x128 agg shapeCasts_S5000x128_S5000x128 (ix2 p q)
          + broadcastTo S5000x128 (shapeCast S1x128 (shapeCast S128 b shapeCasts_S128_S128) shapeCasts_S128_S1x128) broadcasts_S1x128_S5000x128 (ix2 p q))
        (Ideal.ofBits .f32 0x00000000#32) = _
  rw [bias_rows, shapeCast_self, shapeCast_self]

end Cert.KPay

end
-- ==== Proof.KFinal0.lean ====
/-
  Region 0 of the program is the dense projection on 5000-row blocks: grid point t multiplies rows 5000 t … 5000 t + 4999
  of the node features by the whole [128, 128] weight and writes the product back as the same rows of the output. Here:
  what each point writes back is its block of the full matrix product, the ten blocks tile the [50000, 128] output, so
  after the region the output array is the matrix product of the two input arrays as the region finds them.
-/
import proofs.«104043_j65094524338803_1_alg».proof.Proof.IReg0
import proofs.«104043_j65094524338803_1_alg».proof.Proof.KPay
import proofs.«104043_j65094524338803_1_alg».proof.Proof.Math
import Idealize.ShloMosaic.Lib.Pipeline.Value

noncomputable section

namespace Cert.KernelIdeal.Fr

open Idealize.ShloMosaic Idealize.ShloMosaic.TcCoe Idealize.SL.Sem
open Idealize.ShloMosaic.Pipeline (Dat)
open Idealize.ShloMosaic.ValueIdx
open Cert.KernelIdeal Cert.KernelIdeal.Gen

-- the TensorCore's buffer contents when the region is entered
variable (V : (c : Dev nD) → (b : Ref sig .tc) → Buf (Elt Ideal) ((c : Thread nD τ).loc b))

theorem zero_offsets0 : (![0, 0] : Fin 2 → Nat) = fun _ => 0 := funext fun a => by fin_cases a <;> rfl

/-- The block indices of the three windows at grid point t, decided over the ten points: the feature block and the
    output block are block t of their arrays' rows, the weight is its one block. -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the matrix product of the two arrays. -/
theorem flushed0_eq (c : Dev nD) (t : Fin cfg0.N) :
    (dat0 (F := Ideal) V c).flushed 2 t
      = ((cfg0.win 2).blk t).view.read (Elt Ideal) (Cert.Math.LinF (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero zero_offsets0]
  simp only [View.ld_unit_zero (S := S5000x128) zero_offsets0, View.ld_unit_zero (S := S128x128) zero_offsets0]
  obtain ⟨e0, e1, e2, e3, e4, e5⟩ := block_index0 t
  funext j
  obtain ⟨p, q, rfl⟩ : ∃ (p : Fin 5000) (q : Fin 128), j = ix2 p q := ⟨j 0, j 1, eq_ix2 j⟩
  have hp : p.val < 5000 := p.isLt
  have ht : t.val < 10 := lt_of_lt_of_eq t.isLt (show cfg0.N = 10 from N_0)
  -- the row of the array that row p of block t is
  have hr : t.val * 5000 + p.val < 50000 := by omega
  have he : ((cfg0.win 2).blk t).view.emb (ix2 p q) = (ix2 (⟨t.val * 5000 + p.val, hr⟩ : Fin 50000) q : S50000x128.Idx) := by
    funext a; apply Fin.ext
    match a with
    | ⟨0, _⟩ => show win0_2.index t (0 : Fin 2) * 5000 + 1 * p.val = t.val * 5000 + p.val; rw [e4]; omega
    | ⟨1, _⟩ => show win0_2.index t (1 : Fin 2) * 128 + 1 * q.val = q.val; rw [e5]; omega
  show k0_pay1 (F := Ideal) (iblk0 V c 0 t) (iblk0 V c 1 t) (ix2 p q)
      = Cert.Math.LinF (V c (Pipeline.arrRef spec0 0)) (V c (Pipeline.arrRef spec0 1)) (((cfg0.win 2).blk t).view.emb (ix2 p q))
  refine ((Cert.KPay.lin_pay0 _ _ p q).trans ?_).trans (congrArg (Cert.Math.LinF (V c (Pipeline.arrRef spec0 0)) (V c (Pipeline.arrRef spec0 1))) he).symm
  rw [Cert.Math.LinF_apply]
  refine Finset.sum_congr rfl fun k _ => ?_
  have hx : ((cfg0.win 0).blk t).view.emb (ix2 p k) = (ix2 (⟨t.val * 5000 + p.val, hr⟩ : Fin 50000) k : S50000x128.Idx) := by
    funext a; apply Fin.ext
    match a with
    | ⟨0, _⟩ => show win0_0.index t (0 : Fin 2) * 5000 + 1 * p.val = t.val * 5000 + p.val; rw [e0]; omega
    | ⟨1, _⟩ => show win0_0.index t (1 : Fin 2) * 128 + 1 * k.val = k.val; rw [e1]; omega
  have hw : ((cfg0.win 1).blk t).view.emb (ix2 k q) = (ix2 k q : S128x128.Idx) := by
    funext a; apply Fin.ext
    match a with
    | ⟨0, _⟩ => show win0_1.index t (0 : Fin 2) * 128 + 1 * k.val = k.val; rw [e2]; omega
    | ⟨1, _⟩ => show win0_1.index t (1 : Fin 2) * 128 + 1 * q.val = q.val; rw [e3]; omega
  exact congr (congrArg _ (congrArg (V c (Pipeline.arrRef spec0 0)) hx)) (congrArg (V c (Pipeline.arrRef spec0 1)) hw)

/-- An index of the output array is in point t's block iff each coordinate is in the block's range on its axis. -/
theorem mem_block0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v34).slice (win0_2.rect t)).set ↔ _
  rw [View.set_slice_whole, Rect.mem_set_unit]
  exact Iff.rfl

/-- After the region the output array is the matrix product of the feature array and the weight array: row r is in the
    block of point r / 5000. -/
theorem final0 (c : Dev nD) :
    (dat0 (F := Ideal) V c).arrAt 2 cfg0.N = Cert.Math.LinF (V c (Pipeline.arrRef spec0 0)) (V c (Pipeline.arrRef spec0 1)) :=
  (dat0 (F := Ideal) V c).arrAt_eq_of_cover 2 _ (fun t _ => flushed0_eq V c t) fun i => by
    have h0 : (i 0 : Nat) < 50000 := (i 0).isLt
    have h1 : (i 1 : Nat) < 128 := (i 1).isLt
    have hN : (i 0 : Nat) / 5000 < cfg0.N := by rw [show cfg0.N = 10 from N_0]; omega
    obtain ⟨-, -, -, -, e4, e5⟩ := block_index0 ⟨(i 0 : Nat) / 5000, hN⟩
    refine ⟨⟨(i 0 : Nat) / 5000, hN⟩, flush0_2 _, ?_⟩
    rw [mem_block0]
    intro a
    match a with
    | ⟨0, _⟩ =>
      show win0_2.index ⟨(i 0 : Nat) / 5000, hN⟩ (0 : Fin 2) * 5000 ≤ (i 0 : Nat) ∧ (i 0 : Nat) < win0_2.index ⟨(i 0 : Nat) / 5000, hN⟩ (0 : Fin 2) * 5000 + 5000
      rw [e4]
      show (i 0 : Nat) / 5000 * 5000 ≤ (i 0 : Nat) ∧ (i 0 : Nat) < (i 0 : Nat) / 5000 * 5000 + 5000
      omega
    | ⟨1, _⟩ =>
      show win0_2.index ⟨(i 0 : Nat) / 5000, hN⟩ (1 : Fin 2) * 128 ≤ (i 1 : Nat) ∧ (i 1 : Nat) < win0_2.index ⟨(i 0 : Nat) / 5000, hN⟩ (1 : Fin 2) * 128 + 128
      rw [e5]
      omega

end Cert.KernelIdeal.Fr

end
-- ==== Proof.KFinal1.lean ====
/-
  Region 1 of the program is the residual update on 5000-row blocks: grid point t reads rows 5000 t … 5000 t + 4999 of the
  node features and of the aggregated messages and the whole [128] bias, and writes x + max(agg + b, 0) back as the
  same rows of the output. Here: what each point writes back is its block of the update of the whole arrays, the ten
  blocks tile the [50000, 128] output, so after the region the output array is the update of the three input arrays
  as the region finds them.
-/
import proofs.«104043_j65094524338803_1_alg».proof.Proof.IReg1
import proofs.«104043_j65094524338803_1_alg».proof.Proof.KPay
import proofs.«104043_j65094524338803_1_alg».proof.Proof.Math
import Idealize.ShloMosaic.Lib.Pipeline.Value

noncomputable section

namespace Cert.KernelIdeal.Fr

open Idealize.ShloMosaic Idealize.ShloMosaic.TcCoe Idealize.SL.Sem
open Idealize.ShloMosaic.Pipeline (Dat)
open Idealize.ShloMosaic.ValueIdx
open Cert.KernelIdeal Cert.KernelIdeal.Gen

-- the TensorCore's buffer contents when the region is entered
variable (V : (c : Dev nD) → (b : Ref sig .tc) → Buf (Elt Ideal) ((c : Thread nD τ).loc b))

theorem zero_offsets1 : (![0, 0] : Fin 2 → Nat) = fun _ => 0 := funext fun a => by fin_cases a <;> rfl
theorem zero_offset1 : (![0] : Fin 1 → Nat) = fun _ => 0 := funext fun a => by fin_cases a; rfl

/-- The block indices of the four windows at grid point t, decided over the ten points: the feature block, the
    message block and the output block are block t of their arrays' rows, the bias is its one block. -/
theorem block_index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- What point t writes back is block t of the update of the three arrays. -/
theorem flushed1_eq (c : Dev nD) (t : Fin cfg1.N) :
    (dat1 (F := Ideal) V c).flushed 3 t
      = ((cfg1.win 3).blk t).view.read (Elt Ideal)
          (Cert.Math.CombF (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero zero_offsets1]
  simp only [View.ld_unit_zero (S := S5000x128) zero_offsets1, View.ld_unit_zero (S := S128) zero_offset1]
  obtain ⟨e0, e1, e2, e3, e4, e5, e6⟩ := block_index1 t
  funext j
  obtain ⟨p, q, rfl⟩ : ∃ (p : Fin 5000) (q : Fin 128), j = ix2 p q := ⟨j 0, j 1, eq_ix2 j⟩
  have hp : p.val < 5000 := p.isLt
  have ht : t.val < 10 := lt_of_lt_of_eq t.isLt (show cfg1.N = 10 from N_1)
  -- the row of the array that row p of block t is
  have hr : t.val * 5000 + p.val < 50000 := by omega
  have he : ((cfg1.win 3).blk t).view.emb (ix2 p q) = (ix2 (⟨t.val * 5000 + p.val, hr⟩ : Fin 50000) q : S50000x128.Idx) := by
    funext a; apply Fin.ext
    match a with
    | ⟨0, _⟩ => show win1_3.index t (0 : Fin 2) * 5000 + 1 * p.val = t.val * 5000 + p.val; rw [e5]; omega
    | ⟨1, _⟩ => show win1_3.index t (1 : Fin 2) * 128 + 1 * q.val = q.val; rw [e6]; omega
  have hx : ((cfg1.win 0).blk t).view.emb (ix2 p q) = (ix2 (⟨t.val * 5000 + p.val, hr⟩ : Fin 50000) q : S50000x128.Idx) := by
    funext a; apply Fin.ext
    match a with
    | ⟨0, _⟩ => show win1_0.index t (0 : Fin 2) * 5000 + 1 * p.val = t.val * 5000 + p.val; rw [e0]; omega
    | ⟨1, _⟩ => show win1_0.index t (1 : Fin 2) * 128 + 1 * q.val = q.val; rw [e1]; omega
  have ha : ((cfg1.win 1).blk t).view.emb (ix2 p q) = (ix2 (⟨t.val * 5000 + p.val, hr⟩ : Fin 50000) q : S50000x128.Idx) := by
    funext a; apply Fin.ext
    match a with
    | ⟨0, _⟩ => show win1_1.index t (0 : Fin 2) * 5000 + 1 * p.val = t.val * 5000 + p.val; rw [e2]; omega
    | ⟨1, _⟩ => show win1_1.index t (1 : Fin 2) * 128 + 1 * q.val = q.val; rw [e3]; omega
  have hb : ((cfg1.win 2).blk t).view.emb (ix1 q) = (ix1 q : S128.Idx) := by
    funext a; apply Fin.ext
    match a with
    | ⟨0, _⟩ => show win1_2.index t (0 : Fin 1) * 128 + 1 * q.val = q.val; rw [e4]; omega
  show k1_pay1 (F := Ideal) (iblk1 V c 2 t) (iblk1 V c 1 t) (iblk1 V c 0 t) (ix2 p q)
      = Cert.Math.CombF (V c (Pipeline.arrRef spec1 0)) (V c (Pipeline.arrRef spec1 1)) (V c (Pipeline.arrRef spec1 2)) (((cfg1.win 3).blk t).view.emb (ix2 p q))
  refine ((Cert.KPay.comb_pay1 _ _ _ p q).trans ?_).trans
    (congrArg (Cert.Math.CombF (V c (Pipeline.arrRef spec1 0)) (V c (Pipeline.arrRef spec1 1)) (V c (Pipeline.arrRef spec1 2))) he).symm
  rw [Cert.Math.CombF_apply]
  exact congr (congrArg _ (congrArg (V c (Pipeline.arrRef spec1 0)) hx))
    (congrArg (fun z => max z (Ideal.ofBits .f32 0x00000000#32))
      (congr (congrArg _ (congrArg (V c (Pipeline.arrRef spec1 1)) ha)) (congrArg (V c (Pipeline.arrRef spec1 2)) hb)))

/-- An index of the output array is in point t's block iff each coordinate is in the block's range on its axis. -/
theorem mem_block1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v50).slice (win1_3.rect t)).set ↔ _
  rw [View.set_slice_whole, Rect.mem_set_unit]
  exact Iff.rfl

/-- After the region the output array is the update of the feature array by the message array and the bias: row r is
    in the block of point r / 5000. -/
theorem final1 (c : Dev nD) :
    (dat1 (F := Ideal) V c).arrAt 3 cfg1.N
      = Cert.Math.CombF (V c (Pipeline.arrRef spec1 0)) (V c (Pipeline.arrRef spec1 1)) (V c (Pipeline.arrRef spec1 2)) :=
  (dat1 (F := Ideal) V c).arrAt_eq_of_cover 3 _ (fun t _ => flushed1_eq V c t) fun i => by
    have h0 : (i 0 : Nat) < 50000 := (i 0).isLt
    have h1 : (i 1 : Nat) < 128 := (i 1).isLt
    have hN : (i 0 : Nat) / 5000 < cfg1.N := by rw [show cfg1.N = 10 from N_1]; omega
    obtain ⟨-, -, -, -, -, e5, e6⟩ := block_index1 ⟨(i 0 : Nat) / 5000, hN⟩
    refine ⟨⟨(i 0 : Nat) / 5000, hN⟩, flush1_3 _, ?_⟩
    rw [mem_block1]
    intro a
    match a with
    | ⟨0, _⟩ =>
      show win1_3.index ⟨(i 0 : Nat) / 5000, hN⟩ (0 : Fin 2) * 5000 ≤ (i 0 : Nat) ∧ (i 0 : Nat) < win1_3.index ⟨(i 0 : Nat) / 5000, hN⟩ (0 : Fin 2) * 5000 + 5000
      rw [e5]
      show (i 0 : Nat) / 5000 * 5000 ≤ (i 0 : Nat) ∧ (i 0 : Nat) < (i 0 : Nat) / 5000 * 5000 + 5000
      omega
    | ⟨1, _⟩ =>
      show win1_3.index ⟨(i 0 : Nat) / 5000, hN⟩ (1 : Fin 2) * 128 ≤ (i 1 : Nat) ∧ (i 1 : Nat) < win1_3.index ⟨(i 0 : Nat) / 5000, hN⟩ (1 : Fin 2) * 128 + 128
      rw [e6]
      omega

end Cert.KernelIdeal.Fr

end
-- ==== Proof.KFinal2.lean ====
/-
  Region 2 of the program is the dense projection on 5000-row blocks: grid point t multiplies rows 5000 t … 5000 t + 4999
  of the node features by the whole [128, 128] weight and writes the product back as the same rows of the output. Here:
  what each point writes back is its block of the full matrix product, the ten blocks tile the [50000, 128] output, so
  after the region the output array is the matrix product of the two input arrays as the region finds them.
-/
import proofs.«104043_j65094524338803_1_alg».proof.Proof.IReg2
import proofs.«104043_j65094524338803_1_alg».proof.Proof.KPay
import proofs.«104043_j65094524338803_1_alg».proof.Proof.Math
import Idealize.ShloMosaic.Lib.Pipeline.Value

noncomputable section

namespace Cert.KernelIdeal.Fr

open Idealize.ShloMosaic Idealize.ShloMosaic.TcCoe Idealize.SL.Sem
open Idealize.ShloMosaic.Pipeline (Dat)
open Idealize.ShloMosaic.ValueIdx
open Cert.KernelIdeal Cert.KernelIdeal.Gen

-- the TensorCore's buffer contents when the region is entered
variable (V : (c : Dev nD) → (b : Ref sig .tc) → Buf (Elt Ideal) ((c : Thread nD τ).loc b))

theorem zero_offsets2 : (![0, 0] : Fin 2 → Nat) = fun _ => 0 := funext fun a => by fin_cases a <;> rfl

/-- The block indices of the three windows at grid point t, decided over the ten points: the feature block and the
    output block are block t of their arrays' rows, the weight is its one block. -/
theorem block_index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the matrix product of the two arrays. -/
theorem flushed2_eq (c : Dev nD) (t : Fin cfg2.N) :
    (dat2 (F := Ideal) V c).flushed 2 t
      = ((cfg2.win 2).blk t).view.read (Elt Ideal) (Cert.Math.LinF (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero zero_offsets2]
  simp only [View.ld_unit_zero (S := S5000x128) zero_offsets2, View.ld_unit_zero (S := S128x128) zero_offsets2]
  obtain ⟨e0, e1, e2, e3, e4, e5⟩ := block_index2 t
  funext j
  obtain ⟨p, q, rfl⟩ : ∃ (p : Fin 5000) (q : Fin 128), j = ix2 p q := ⟨j 0, j 1, eq_ix2 j⟩
  have hp : p.val < 5000 := p.isLt
  have ht : t.val < 10 := lt_of_lt_of_eq t.isLt (show cfg2.N = 10 from N_2)
  -- the row of the array that row p of block t is
  have hr : t.val * 5000 + p.val < 50000 := by omega
  have he : ((cfg2.win 2).blk t).view.emb (ix2 p q) = (ix2 (⟨t.val * 5000 + p.val, hr⟩ : Fin 50000) q : S50000x128.Idx) := by
    funext a; apply Fin.ext
    match a with
    | ⟨0, _⟩ => show win2_2.index t (0 : Fin 2) * 5000 + 1 * p.val = t.val * 5000 + p.val; rw [e4]; omega
    | ⟨1, _⟩ => show win2_2.index t (1 : Fin 2) * 128 + 1 * q.val = q.val; rw [e5]; omega
  show k2_pay1 (F := Ideal) (iblk2 V c 0 t) (iblk2 V c 1 t) (ix2 p q)
      = Cert.Math.LinF (V c (Pipeline.arrRef spec2 0)) (V c (Pipeline.arrRef spec2 1)) (((cfg2.win 2).blk t).view.emb (ix2 p q))
  refine ((Cert.KPay.lin_pay2 _ _ p q).trans ?_).trans (congrArg (Cert.Math.LinF (V c (Pipeline.arrRef spec2 0)) (V c (Pipeline.arrRef spec2 1))) he).symm
  rw [Cert.Math.LinF_apply]
  refine Finset.sum_congr rfl fun k _ => ?_
  have hx : ((cfg2.win 0).blk t).view.emb (ix2 p k) = (ix2 (⟨t.val * 5000 + p.val, hr⟩ : Fin 50000) k : S50000x128.Idx) := by
    funext a; apply Fin.ext
    match a with
    | ⟨0, _⟩ => show win2_0.index t (0 : Fin 2) * 5000 + 1 * p.val = t.val * 5000 + p.val; rw [e0]; omega
    | ⟨1, _⟩ => show win2_0.index t (1 : Fin 2) * 128 + 1 * k.val = k.val; rw [e1]; omega
  have hw : ((cfg2.win 1).blk t).view.emb (ix2 k q) = (ix2 k q : S128x128.Idx) := by
    funext a; apply Fin.ext
    match a with
    | ⟨0, _⟩ => show win2_1.index t (0 : Fin 2) * 128 + 1 * k.val = k.val; rw [e2]; omega
    | ⟨1, _⟩ => show win2_1.index t (1 : Fin 2) * 128 + 1 * q.val = q.val; rw [e3]; omega
  exact congr (congrArg _ (congrArg (V c (Pipeline.arrRef spec2 0)) hx)) (congrArg (V c (Pipeline.arrRef spec2 1)) hw)

/-- An index of the output array is in point t's block iff each coordinate is in the block's range on its axis. -/
theorem mem_block2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v53).slice (win2_2.rect t)).set ↔ _
  rw [View.set_slice_whole, Rect.mem_set_unit]
  exact Iff.rfl

/-- After the region the output array is the matrix product of the feature array and the weight array: row r is in the
    block of point r / 5000. -/
theorem final2 (c : Dev nD) :
    (dat2 (F := Ideal) V c).arrAt 2 cfg2.N = Cert.Math.LinF (V c (Pipeline.arrRef spec2 0)) (V c (Pipeline.arrRef spec2 1)) :=
  (dat2 (F := Ideal) V c).arrAt_eq_of_cover 2 _ (fun t _ => flushed2_eq V c t) fun i => by
    have h0 : (i 0 : Nat) < 50000 := (i 0).isLt
    have h1 : (i 1 : Nat) < 128 := (i 1).isLt
    have hN : (i 0 : Nat) / 5000 < cfg2.N := by rw [show cfg2.N = 10 from N_2]; omega
    obtain ⟨-, -, -, -, e4, e5⟩ := block_index2 ⟨(i 0 : Nat) / 5000, hN⟩
    refine ⟨⟨(i 0 : Nat) / 5000, hN⟩, flush2_2 _, ?_⟩
    rw [mem_block2]
    intro a
    match a with
    | ⟨0, _⟩ =>
      show win2_2.index ⟨(i 0 : Nat) / 5000, hN⟩ (0 : Fin 2) * 5000 ≤ (i 0 : Nat) ∧ (i 0 : Nat) < win2_2.index ⟨(i 0 : Nat) / 5000, hN⟩ (0 : Fin 2) * 5000 + 5000
      rw [e4]
      show (i 0 : Nat) / 5000 * 5000 ≤ (i 0 : Nat) ∧ (i 0 : Nat) < (i 0 : Nat) / 5000 * 5000 + 5000
      omega
    | ⟨1, _⟩ =>
      show win2_2.index ⟨(i 0 : Nat) / 5000, hN⟩ (1 : Fin 2) * 128 ≤ (i 1 : Nat) ∧ (i 1 : Nat) < win2_2.index ⟨(i 0 : Nat) / 5000, hN⟩ (1 : Fin 2) * 128 + 128
      rw [e5]
      omega

end Cert.KernelIdeal.Fr

end
-- ==== Proof.KFinal3.lean ====
/-
  Region 3 of the program is the residual update on 5000-row blocks: grid point t reads rows 5000 t … 5000 t + 4999 of the
  node features and of the aggregated messages and the whole [128] bias, and writes x + max(agg + b, 0) back as the
  same rows of the output. Here: what each point writes back is its block of the update of the whole arrays, the ten
  blocks tile the [50000, 128] output, so after the region the output array is the update of the three input arrays
  as the region finds them.
-/
import proofs.«104043_j65094524338803_1_alg».proof.Proof.IReg3
import proofs.«104043_j65094524338803_1_alg».proof.Proof.KPay
import proofs.«104043_j65094524338803_1_alg».proof.Proof.Math
import Idealize.ShloMosaic.Lib.Pipeline.Value

noncomputable section

namespace Cert.KernelIdeal.Fr

open Idealize.ShloMosaic Idealize.ShloMosaic.TcCoe Idealize.SL.Sem
open Idealize.ShloMosaic.Pipeline (Dat)
open Idealize.ShloMosaic.ValueIdx
open Cert.KernelIdeal Cert.KernelIdeal.Gen

-- the TensorCore's buffer contents when the region is entered
variable (V : (c : Dev nD) → (b : Ref sig .tc) → Buf (Elt Ideal) ((c : Thread nD τ).loc b))

theorem zero_offsets3 : (![0, 0] : Fin 2 → Nat) = fun _ => 0 := funext fun a => by fin_cases a <;> rfl
theorem zero_offset3 : (![0] : Fin 1 → Nat) = fun _ => 0 := funext fun a => by fin_cases a; rfl

/-- The block indices of the four windows at grid point t, decided over the ten points: the feature block, the
    message block and the output block are block t of their arrays' rows, the bias is its one block. -/
theorem block_index3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

set_option maxHeartbeats 1600000 in
/-- What point t writes back is block t of the update of the three arrays. -/
theorem flushed3_eq (c : Dev nD) (t : Fin cfg3.N) :
    (dat3 (F := Ideal) V c).flushed 3 t
      = ((cfg3.win 3).blk t).view.read (Elt Ideal)
          (Cert.Math.CombF (V c (Pipeline.arrRef spec3 0)) (V c (Pipeline.arrRef spec3 1)) (V c (Pipeline.arrRef spec3 2))) := by
  show (cfg3.win 3).cut (grid3.coords t) ((dat3 (F := Ideal) V c).after 3 t) = _
  rw [after3_3]
  unfold out3_3
  rw [View.canon_unit_zero zero_offsets3]
  simp only [View.ld_unit_zero (S := S5000x128) zero_offsets3, View.ld_unit_zero (S := S128) zero_offset3]
  obtain ⟨e0, e1, e2, e3, e4, e5, e6⟩ := block_index3 t
  funext j
  obtain ⟨p, q, rfl⟩ : ∃ (p : Fin 5000) (q : Fin 128), j = ix2 p q := ⟨j 0, j 1, eq_ix2 j⟩
  have hp : p.val < 5000 := p.isLt
  have ht : t.val < 10 := lt_of_lt_of_eq t.isLt (show cfg3.N = 10 from N_3)
  -- the row of the array that row p of block t is
  have hr : t.val * 5000 + p.val < 50000 := by omega
  have he : ((cfg3.win 3).blk t).view.emb (ix2 p q) = (ix2 (⟨t.val * 5000 + p.val, hr⟩ : Fin 50000) q : S50000x128.Idx) := by
    funext a; apply Fin.ext
    match a with
    | ⟨0, _⟩ => show win3_3.index t (0 : Fin 2) * 5000 + 1 * p.val = t.val * 5000 + p.val; rw [e5]; omega
    | ⟨1, _⟩ => show win3_3.index t (1 : Fin 2) * 128 + 1 * q.val = q.val; rw [e6]; omega
  have hx : ((cfg3.win 0).blk t).view.emb (ix2 p q) = (ix2 (⟨t.val * 5000 + p.val, hr⟩ : Fin 50000) q : S50000x128.Idx) := by
    funext a; apply Fin.ext
    match a with
    | ⟨0, _⟩ => show win3_0.index t (0 : Fin 2) * 5000 + 1 * p.val = t.val * 5000 + p.val; rw [e0]; omega
    | ⟨1, _⟩ => show win3_0.index t (1 : Fin 2) * 128 + 1 * q.val = q.val; rw [e1]; omega
  have ha : ((cfg3.win 1).blk t).view.emb (ix2 p q) = (ix2 (⟨t.val * 5000 + p.val, hr⟩ : Fin 50000) q : S50000x128.Idx) := by
    funext a; apply Fin.ext
    match a with
    | ⟨0, _⟩ => show win3_1.index t (0 : Fin 2) * 5000 + 1 * p.val = t.val * 5000 + p.val; rw [e2]; omega
    | ⟨1, _⟩ => show win3_1.index t (1 : Fin 2) * 128 + 1 * q.val = q.val; rw [e3]; omega
  have hb : ((cfg3.win 2).blk t).view.emb (ix1 q) = (ix1 q : S128.Idx) := by
    funext a; apply Fin.ext
    match a with
    | ⟨0, _⟩ => show win3_2.index t (0 : Fin 1) * 128 + 1 * q.val = q.val; rw [e4]; omega
  show k3_pay1 (F := Ideal) (iblk3 V c 2 t) (iblk3 V c 1 t) (iblk3 V c 0 t) (ix2 p q)
      = Cert.Math.CombF (V c (Pipeline.arrRef spec3 0)) (V c (Pipeline.arrRef spec3 1)) (V c (Pipeline.arrRef spec3 2)) (((cfg3.win 3).blk t).view.emb (ix2 p q))
  refine ((Cert.KPay.comb_pay3 _ _ _ p q).trans ?_).trans
    (congrArg (Cert.Math.CombF (V c (Pipeline.arrRef spec3 0)) (V c (Pipeline.arrRef spec3 1)) (V c (Pipeline.arrRef spec3 2))) he).symm
  rw [Cert.Math.CombF_apply]
  exact congr (congrArg _ (congrArg (V c (Pipeline.arrRef spec3 0)) hx))
    (congrArg (fun z => max z (Ideal.ofBits .f32 0x00000000#32))
      (congr (congrArg _ (congrArg (V c (Pipeline.arrRef spec3 1)) ha)) (congrArg (V c (Pipeline.arrRef spec3 2)) hb)))

/-- An index of the output array is in point t's block iff each coordinate is in the block's range on its axis. -/
theorem mem_block3 (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v69).slice (win3_3.rect t)).set ↔ _
  rw [View.set_slice_whole, Rect.mem_set_unit]
  exact Iff.rfl

/-- After the region the output array is the update of the feature array by the message array and the bias: row r is
    in the block of point r / 5000. -/
theorem final3 (c : Dev nD) :
    (dat3 (F := Ideal) V c).arrAt 3 cfg3.N
      = Cert.Math.CombF (V c (Pipeline.arrRef spec3 0)) (V c (Pipeline.arrRef spec3 1)) (V c (Pipeline.arrRef spec3 2)) :=
  (dat3 (F := Ideal) V c).arrAt_eq_of_cover 3 _ (fun t _ => flushed3_eq V c t) fun i => by
    have h0 : (i 0 : Nat) < 50000 := (i 0).isLt
    have h1 : (i 1 : Nat) < 128 := (i 1).isLt
    have hN : (i 0 : Nat) / 5000 < cfg3.N := by rw [show cfg3.N = 10 from N_3]; omega
    obtain ⟨-, -, -, -, -, e5, e6⟩ := block_index3 ⟨(i 0 : Nat) / 5000, hN⟩
    refine ⟨⟨(i 0 : Nat) / 5000, hN⟩, flush3_3 _, ?_⟩
    rw [mem_block3]
    intro a
    match a with
    | ⟨0, _⟩ =>
      show win3_3.index ⟨(i 0 : Nat) / 5000, hN⟩ (0 : Fin 2) * 5000 ≤ (i 0 : Nat) ∧ (i 0 : Nat) < win3_3.index ⟨(i 0 : Nat) / 5000, hN⟩ (0 : Fin 2) * 5000 + 5000
      rw [e5]
      show (i 0 : Nat) / 5000 * 5000 ≤ (i 0 : Nat) ∧ (i 0 : Nat) < (i 0 : Nat) / 5000 * 5000 + 5000
      omega
    | ⟨1, _⟩ =>
      show win3_3.index ⟨(i 0 : Nat) / 5000, hN⟩ (1 : Fin 2) * 128 ≤ (i 1 : Nat) ∧ (i 1 : Nat) < win3_3.index ⟨(i 0 : Nat) / 5000, hN⟩ (1 : Fin 2) * 128 + 128
      rw [e6]
      omega

end Cert.KernelIdeal.Fr

end
-- ==== Proof.IVal.lean ====
/-
  What the idealized kernel program computes. At the ideal instance the two projection kernels leave the matrix product
  `LinF` of the node features with the layer's weight, the two update kernels the residual update `CombF`, and the host
  stretches between them the gather, scale and scatter-add of the messages; the result array is the specification `Out`
  of the four arguments: the reshape of two layers x ↦ x + max(scatter-add(gather(x · W) · norm) + b, 0).
-/
import proofs.«104043_j65094524338803_1_alg».proof.Proof.IValA
import proofs.«104043_j65094524338803_1_alg».proof.Proof.KFinal0
import proofs.«104043_j65094524338803_1_alg».proof.Proof.KFinal1
import proofs.«104043_j65094524338803_1_alg».proof.Proof.KFinal2
import proofs.«104043_j65094524338803_1_alg».proof.Proof.KFinal3

set_option maxRecDepth 16384

noncomputable section

namespace Cert.KernelIdeal.Fr

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg) (c : Dev nD)

/-! ## The first layer -/

/-- The first projection kernel leaves the features times the first weight. -/
theorem k_v34 : (Bd4 m ρ c (Proc.devRef .tc main_v34) : FVec Ideal S50000x128 .f32) = (Cert.Math.LinF (Cert.Spec.X0 (m ((c : Thread nD τ).loc main_arg0))) (Cert.Spec.Wl0 (m ((c : Thread nD τ).loc main_arg2)))) := by
  refine (Bd4_arr m ρ c 2).trans ((final0 (Vw3 m ρ) c).trans ?_)
  show Cert.Math.LinF (Bd3 m ρ c (Proc.devRef .tc main_v0)) (Bd3 m ρ c (Proc.devRef .tc main_v33)) = _
  rw [k_v0, k_v33]

/-- The features are still there after it (an input array of the region). -/
theorem k4_v0 : (Bd4 m ρ c (Proc.devRef .tc main_v0) : FVec Ideal S50000x128 .f32) = Cert.Spec.X0 (m ((c : Thread nD τ).loc main_arg0)) :=
  ((Bd4_arr m ρ c 0).trans (((dat0 (Vw3 m ρ) c).arrAt_in 0 rfl _).trans (A_eq0 (Vw3 m ρ) c 0))).trans (k_v0 m ρ c)

/-- The aggregated messages of the first layer. -/
theorem k_v47 : (Bd5 m ρ c (Proc.devRef .tc main_v47) : FVec Ideal S50000x128 .f32) = Cert.Spec.AggT (Cert.Math.LinF (Cert.Spec.X0 (m ((c : Thread nD τ).loc main_arg0))) (Cert.Spec.Wl0 (m ((c : Thread nD τ).loc main_arg2)))) (m ((c : Thread nD τ).loc main_arg1)) := by
  show StableHlo.after hostOps1 (Bd4 m ρ c) (Proc.devRef .tc main_v47) = _
  dsimp only [hostOps1]
  after_results_simp3
  rw [k_v34, back4 m ρ c main_v5 (by decide), back4 m ρ c main_v8 (by decide), back4 m ρ c main_v31 (by decide), k_v5, k_v8, k_v31]
  rfl

/-- The first bias row. -/
theorem k_v49 : (Bd5 m ρ c (Proc.devRef .tc main_v49) : FVec Ideal S128 .f32) = Cert.Spec.Bl0 (m ((c : Thread nD τ).loc main_arg3)) := by
  show StableHlo.after hostOps1 (Bd4 m ρ c) (Proc.devRef .tc main_v49) = _
  dsimp only [hostOps1]
  after_results_simp3
  rw [arg3_at4]
  rfl

theorem k5_v0 : (Bd5 m ρ c (Proc.devRef .tc main_v0) : FVec Ideal S50000x128 .f32) = Cert.Spec.X0 (m ((c : Thread nD τ).loc main_arg0)) :=
  (Bd5_of m ρ c main_v0 (by decide)).trans (k4_v0 m ρ c)

/-- The first update kernel leaves the first layer's output. -/
theorem k_v50 : (Bd6 m ρ c (Proc.devRef .tc main_v50) : FVec Ideal S50000x128 .f32) = (Cert.Spec.Layer (Cert.Spec.X0 (m ((c : Thread nD τ).loc main_arg0))) (Cert.Spec.Wl0 (m ((c : Thread nD τ).loc main_arg2))) (Cert.Spec.Bl0 (m ((c : Thread nD τ).loc main_arg3))) (m ((c : Thread nD τ).loc main_arg1))) := by
  refine (Bd6_arr m ρ c 3).trans ((final1 (Vw5 m ρ) c).trans ?_)
  show Cert.Math.CombF (Bd5 m ρ c (Proc.devRef .tc main_v0)) (Bd5 m ρ c (Proc.devRef .tc main_v47)) (Bd5 m ρ c (Proc.devRef .tc main_v49)) = _
  rw [k5_v0, k_v47, k_v49]
  rfl

/-! ## The second layer -/

theorem k_v52 : (Bd7 m ρ c (Proc.devRef .tc main_v52) : FVec Ideal S128x128 .f32) = Cert.Spec.Wl1 (m ((c : Thread nD τ).loc main_arg2)) := by
  show StableHlo.after hostOps2 (Bd6 m ρ c) (Proc.devRef .tc main_v52) = _
  dsimp only [hostOps2]
  after_results_simp3
  rw [arg2_at6]
  rfl

theorem k7_v50 : (Bd7 m ρ c (Proc.devRef .tc main_v50) : FVec Ideal S50000x128 .f32) = (Cert.Spec.Layer (Cert.Spec.X0 (m ((c : Thread nD τ).loc main_arg0))) (Cert.Spec.Wl0 (m ((c : Thread nD τ).loc main_arg2))) (Cert.Spec.Bl0 (m ((c : Thread nD τ).loc main_arg3))) (m ((c : Thread nD τ).loc main_arg1))) :=
  (Bd7_of m ρ c main_v50 (by decide)).trans (k_v50 m ρ c)

theorem k_v53 : (Bd8 m ρ c (Proc.devRef .tc main_v53) : FVec Ideal S50000x128 .f32) = (Cert.Math.LinF (Cert.Spec.Layer (Cert.Spec.X0 (m ((c : Thread nD τ).loc main_arg0))) (Cert.Spec.Wl0 (m ((c : Thread nD τ).loc main_arg2))) (Cert.Spec.Bl0 (m ((c : Thread nD τ).loc main_arg3))) (m ((c : Thread nD τ).loc main_arg1))) (Cert.Spec.Wl1 (m ((c : Thread nD τ).loc main_arg2)))) := by
  refine (Bd8_arr m ρ c 2).trans ((final2 (Vw7 m ρ) c).trans ?_)
  show Cert.Math.LinF (Bd7 m ρ c (Proc.devRef .tc main_v50)) (Bd7 m ρ c (Proc.devRef .tc main_v52)) = _
  rw [k7_v50, k_v52]

theorem k8_v50 : (Bd8 m ρ c (Proc.devRef .tc main_v50) : FVec Ideal S50000x128 .f32) = (Cert.Spec.Layer (Cert.Spec.X0 (m ((c : Thread nD τ).loc main_arg0))) (Cert.Spec.Wl0 (m ((c : Thread nD τ).loc main_arg2))) (Cert.Spec.Bl0 (m ((c : Thread nD τ).loc main_arg3))) (m ((c : Thread nD τ).loc main_arg1))) :=
  ((Bd8_arr m ρ c 0).trans (((dat2 (Vw7 m ρ) c).arrAt_in 0 rfl _).trans (A_eq2 (Vw7 m ρ) c 0))).trans (k7_v50 m ρ c)

theorem k_v66 : (Bd9 m ρ c (Proc.devRef .tc main_v66) : FVec Ideal S50000x128 .f32) = Cert.Spec.AggT (Cert.Math.LinF (Cert.Spec.Layer (Cert.Spec.X0 (m ((c : Thread nD τ).loc main_arg0))) (Cert.Spec.Wl0 (m ((c : Thread nD τ).loc main_arg2))) (Cert.Spec.Bl0 (m ((c : Thread nD τ).loc main_arg3))) (m ((c : Thread nD τ).loc main_arg1))) (Cert.Spec.Wl1 (m ((c : Thread nD τ).loc main_arg2)))) (m ((c : Thread nD τ).loc main_arg1)) := by
  show StableHlo.after hostOps3 (Bd8 m ρ c) (Proc.devRef .tc main_v66) = _
  dsimp only [hostOps3]
  after_results_simp3
  rw [k_v53, back8 m ρ c main_v5 (by decide) (by decide) (by decide) (by decide) (by decide),
    back8 m ρ c main_v8 (by decide) (by decide) (by decide) (by decide) (by decide),
    back8 m ρ c main_v31 (by decide) (by decide) (by decide) (by decide) (by decide), k_v5, k_v8, k_v31]
  rfl

theorem k_v68 : (Bd9 m ρ c (Proc.devRef .tc main_v68) : FVec Ideal S128 .f32) = Cert.Spec.Bl1 (m ((c : Thread nD τ).loc main_arg3)) := by
  show StableHlo.after hostOps3 (Bd8 m ρ c) (Proc.devRef .tc main_v68) = _
  dsimp only [hostOps3]
  after_results_simp3
  rw [arg3_at8]
  rfl

theorem k9_v50 : (Bd9 m ρ c (Proc.devRef .tc main_v50) : FVec Ideal S50000x128 .f32) = (Cert.Spec.Layer (Cert.Spec.X0 (m ((c : Thread nD τ).loc main_arg0))) (Cert.Spec.Wl0 (m ((c : Thread nD τ).loc main_arg2))) (Cert.Spec.Bl0 (m ((c : Thread nD τ).loc main_arg3))) (m ((c : Thread nD τ).loc main_arg1))) :=
  (Bd9_of m ρ c main_v50 (by decide)).trans (k8_v50 m ρ c)

theorem k_v69 : (Bd10 m ρ c (Proc.devRef .tc main_v69) : FVec Ideal S50000x128 .f32)
    = Cert.Spec.Layer (Cert.Spec.Layer (Cert.Spec.X0 (m ((c : Thread nD τ).loc main_arg0))) (Cert.Spec.Wl0 (m ((c : Thread nD τ).loc main_arg2))) (Cert.Spec.Bl0 (m ((c : Thread nD τ).loc main_arg3))) (m ((c : Thread nD τ).loc main_arg1))) (Cert.Spec.Wl1 (m ((c : Thread nD τ).loc main_arg2))) (Cert.Spec.Bl1 (m ((c : Thread nD τ).loc main_arg3))) (m ((c : Thread nD τ).loc main_arg1)) := by
  refine (Bd10_arr m ρ c 3).trans ((final3 (Vw9 m ρ) c).trans ?_)
  show Cert.Math.CombF (Bd9 m ρ c (Proc.devRef .tc main_v50)) (Bd9 m ρ c (Proc.devRef .tc main_v66)) (Bd9 m ρ c (Proc.devRef .tc main_v68)) = _
  rw [k9_v50, k_v66, k_v68]
  rfl

/-- The result array: the specification of the four arguments. -/
theorem k_v70 : (Bd11 m ρ c (Proc.devRef .tc main_v70) : FVec Ideal S8x6250x128 .f32) = Cert.Spec.Out (m ((c : Thread nD τ).loc main_arg0)) (m ((c : Thread nD τ).loc main_arg1)) (m ((c : Thread nD τ).loc main_arg2)) (m ((c : Thread nD τ).loc main_arg3)) := by
  show StableHlo.after hostOps4 (Bd10 m ρ c) (Proc.devRef .tc main_v70) = _
  dsimp only [hostOps4]
  after_results_simp3
  rw [k_v69]
  rfl

/-- THE VALUE RUN: every weakly fair execution of the idealized kernel program terminates with its result at the
    specification of the arguments and the arguments unchanged. -/
theorem run_value : θ_run defs (onTc (τ := τ) (main (F := Ideal))) ⟨m, fun _ => 0, ρ⟩ (fun r => ∀ c : Dev nD,
      r.2.mem ((c.tc : Thread nD τ).loc main_v70) = Cert.Spec.Out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v70 (by decide))).trans (k_v70 m ρ c),
     (h c _ (mem_uc main_arg0 (by decide))).trans (Bd11_main_arg0 m ρ c),
     (h c _ (mem_uc main_arg1 (by decide))).trans (Bd11_main_arg1 m ρ c),
     (h c _ (mem_uc main_arg2 (by decide))).trans (Bd11_main_arg2 m ρ c),
     (h c _ (mem_uc main_arg3 (by decide))).trans (Bd11_main_arg3 m ρ c)⟩) (run_all m ρ)

end Cert.KernelIdeal.Fr

end
-- ==== Proof.lean ====
/-
  The proof of `Cert.Claim`: the kernel (a two-layer graph convolution, each layer a row-blocked matrix product,
  a gather / scale / scatter-add on the host, and a row-blocked residual update x + max(agg + b, 0)) against its
  reference, at the extended reals. The five conjuncts and where each is proved:
    1. `frame_Kernel`: the kernel runs and leaves its four arguments unchanged (Proof/KRun.lean);
    2. `frame_KernelIdeal`: the same of the kernel read at the extended reals (Proof/IRun.lean);
    3. `frame_ReferenceIdeal`: the same of the reference — its run (Proof/RefRun.lean) with the result forgotten;
    4. `preserves_Kernel_KernelIdeal`: the idealization rewrote no operation, so the statement is `True`;
    5. `algebraic_KernelIdeal_ReferenceIdeal`: from memories that agree on the arguments both programs end with the
       same result, `Cert.Spec.Out` of the arguments — two layers `CombF x (AggT (LinF x w)) b` (Proof/Math.lean,
       Proof/Spec.lean). The kernel's run ends there by Proof/IVal.lean; the reference's composed result term is
       `Out` of its arguments by `Cert.Spec.ref_out` (its `dot_general` is `LinF`, its add / maximum chain is
       `CombF`: Proof/RefEq.lean), and the two memories' arguments are equal by hypothesis.
  The witnesses of the programs' stated facts are the instances the generated Proof/Gen/ modules prove.
-/
import proofs.«104043_j65094524338803_1_alg».proof.Defs
import proofs.«104043_j65094524338803_1_alg».proof.Proof.KRun
import proofs.«104043_j65094524338803_1_alg».proof.Proof.IRun
import proofs.«104043_j65094524338803_1_alg».proof.Proof.IVal
import proofs.«104043_j65094524338803_1_alg».proof.Proof.RefRun
import proofs.«104043_j65094524338803_1_alg».proof.Proof.Spec
import proofs.«104043_j65094524338803_1_alg».proof.Proof.Gen.Kernel
import proofs.«104043_j65094524338803_1_alg».proof.Proof.Gen.KernelIdeal
import proofs.«104043_j65094524338803_1_alg».proof.Proof.Gen.ReferenceIdeal
import proofs.«104043_j65094524338803_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The kernel runs and leaves its arguments unchanged. -/
theorem frame_Kernel : Cert.frame_Kernel := fun m ρ _ => Cert.Kernel.Fr.frame m ρ
/-- So does the kernel read at the extended reals. -/
theorem frame_KernelIdeal : Cert.frame_KernelIdeal := fun m ρ _ => Cert.KernelIdeal.Fr.frame m ρ
/-- So does the reference: its run, the result forgotten. -/
theorem frame_ReferenceIdeal : Cert.frame_ReferenceIdeal := fun m ρ _ =>
  (θ_run Cert.ReferenceIdeal.defs _ _).mono (fun _ h c => (h c).2) (Cert.ReferenceIdeal.ValueP.run (F := Ideal) m ρ)

/-- No operation was rewritten between the kernel and its reading at the extended reals. -/
theorem preserves : Cert.preserves_Kernel_KernelIdeal := trivial

/-- At the extended reals the kernel's result array ends at `Out` of its arguments, and the reference's at its composed
    term of arguments that agree with the kernel's, which is the same `Out` (`Cert.Spec.ref_out`). -/
theorem algebraic : Cert.algebraic_KernelIdeal_ReferenceIdeal := by
  intro m ρ m' ρ' _ hagree
  refine ⟨_, Cert.KernelIdeal.Fr.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.Spec.ref_out, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
